-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x4 : Shape := ⟨3, ![4, 16384, 4]⟩
abbrev S4x2048x3 : Shape := ⟨3, ![4, 2048, 3]⟩
abbrev S_ : Shape := ⟨0, ![]⟩

class Facts : Prop where
  bcast_S_S4x16384x4 : S_.BroadcastsInDim S4x16384x4 (![] : Fin 0 → Fin S4x16384x4.rank)
  reducesTo_S4x16384x4_S_d0_1_2 : S4x16384x4.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_

variable [Facts]

def fn {F : FTy → Type} [FloatOps F] (main_arg0 : FVec F S4x16384x4 .f32) (main_arg1 : FVec F S4x2048x3 .f32) : IVec S_ 1 :=
  let main_v0 : FVec F S4x16384x4 .f32 := Host.absf main_arg0
  let main_cst : FVec F S_ .f32 := constant S_ .f32 0x7F800000#32
  let main_v1 : FVec F S4x16384x4 .f32 := broadcastInDim S4x16384x4 ![] bcast_S_S4x16384x4 main_cst
  let main_v2 : IVec S4x16384x4 1 := cmpf .olt main_v0 main_v1
  let main_c : IVec S_ 1 := constantI S_ 1 1#1
  let main_v3 : IVec S_ 1 := (fun x v => Host.reduce IntOp.andi x v reducesTo_S4x16384x4_S_d0_1_2 h_S_) main_v2 main_c
  let main_v4 : FVec F S4x2048x3 .f32 := Host.absf main_arg1
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  main_v8
-- ==== Kernel.lean ====
abbrev S4x16384x4 : Shape := ⟨3, ![4, 16384, 4]⟩
abbrev S4x2048x3 : Shape := ⟨3, ![4, 2048, 3]⟩
abbrev S4x16384x3 : Shape := ⟨3, ![4, 16384, 3]⟩
abbrev S_ : Shape := ⟨0, ![]⟩
abbrev S4x16384x1 : Shape := ⟨3, ![4, 16384, 1]⟩
abbrev S4x2048 : Shape := ⟨2, ![4, 2048]⟩
abbrev S4x2048x1 : Shape := ⟨3, ![4, 2048, 1]⟩
abbrev S4x2048x4 : Shape := ⟨3, ![4, 2048, 4]⟩
abbrev S4x4x2048 : Shape := ⟨3, ![4, 4, 2048]⟩
abbrev S1x1024x4 : Shape := ⟨3, ![1, 1024, 4]⟩
abbrev S1x4x2048 : Shape := ⟨3, ![1, 4, 2048]⟩
abbrev S1x1024x1 : Shape := ⟨3, ![1, 1024, 1]⟩
abbrev S1x2048x1 : Shape := ⟨3, ![1, 2048, 1]⟩
abbrev S1024x4 : Shape := ⟨2, ![1024, 4]⟩
abbrev S1024x3 : Shape := ⟨2, ![1024, 3]⟩
abbrev S1024 : Shape := ⟨1, ![1024]⟩
abbrev S1024x1 : Shape := ⟨2, ![1024, 1]⟩
abbrev S1024x2048 : Shape := ⟨2, ![1024, 2048]⟩
abbrev S2048 : Shape := ⟨1, ![2048]⟩
abbrev S4x16384 : Shape := ⟨2, ![4, 16384]⟩
abbrev S4 : Shape := ⟨1, ![4]⟩

abbrev nBuf : Space → Nat
  | .hbm => 51
  | .vmem => 8
  | .smem => 0
  | _ => 0

abbrev bufTy : (tb : Table) → Fin (tcTables nBuf tb) → BufTy
  | .hbm, ⟨0, _⟩ => ⟨S4x16384x4, .f32⟩
  | .hbm, ⟨1, _⟩ => ⟨S4x2048x3, .f32⟩
  | .hbm, ⟨2, _⟩ => ⟨S4x16384x3, .f32⟩
  | .hbm, ⟨3, _⟩ => ⟨S_, .f32⟩
  | .hbm, ⟨4, _⟩ => ⟨S4x16384x1, .f32⟩
  | .hbm, ⟨5, _⟩ => ⟨S4x16384x4, .f32⟩
  | .hbm, ⟨6, _⟩ => ⟨S4x2048x3, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x3, .f32⟩
  | .hbm, ⟨12, _⟩ => ⟨S4x2048x3, .f32⟩
  | .hbm, ⟨13, _⟩ => ⟨S4x2048x4, .f32⟩
  | .hbm, ⟨14, _⟩ => ⟨S4x4x2048, .f32⟩
  | .hbm, ⟨15, _⟩ => ⟨S4x16384x1, .f32⟩
  | .hbm, ⟨16, _⟩ => ⟨S4x2048x1, .f32⟩
  | .hbm, ⟨17, _⟩ => ⟨S4x16384, .f32⟩
  | .hbm, ⟨18, _⟩ => ⟨S4x2048, .f32⟩
  | .hbm, ⟨19, _⟩ => ⟨S_, .f32⟩
  | .hbm, ⟨20, _⟩ => ⟨S4x16384, .f32⟩
  | .hbm, ⟨21, _⟩ => ⟨S4x16384, .f32⟩
  | .hbm, ⟨22, _⟩ => ⟨S4x16384, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1x1024x4, .f32⟩
  | .local _ .vmem, ⟨1, _⟩ => ⟨S1x1024x4, .f32⟩
  | .local _ .vmem, ⟨2, _⟩ => ⟨S1x4x2048, .f32⟩
  | .local _ .vmem, ⟨3, _⟩ => ⟨S1x4x2048, .f32⟩
  | .local _ .vmem, ⟨4, _⟩ => ⟨S1x1024x1, .f32⟩
  | .local _ .vmem, ⟨5, _⟩ => ⟨S1x1024x1, .f32⟩
  | .local _ .vmem, ⟨6, _⟩ => ⟨S1x2048x1, .f32⟩
  | .local _ .vmem, ⟨7, _⟩ => ⟨S1x2048x1, .f32⟩
  | _, _ => ⟨S4x16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .ne v22 c0_i32_13
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S4x16384x4_S4x16384x3_0_0_0 : S4x16384x4.Slices ![0, 0, 0] S4x16384x3
  bcast_S_S4x16384x1 : S_.BroadcastsInDim S4x16384x1 (![] : Fin 0 → Fin S4x16384x1.rank)
  concatenates_S4x16384x3_S4x16384x1_S4x16384x4_d2 : Shape.Concatenates [S4x16384x3, S4x16384x1] S4x16384x4 2
  reducesTo_S4x2048x3_S4x2048_d2 : S4x2048x3.ReducesTo [2] S4x2048
  h_S_ : 0 < S_.numel
  bcast_S4x2048_S4x2048x1_0_1 : S4x2048.BroadcastsInDim S4x2048x1 (![0, 1] : Fin 2 → Fin S4x2048x1.rank)
  bcast_S_S4x2048x3 : S_.BroadcastsInDim S4x2048x3 (![] : Fin 0 → Fin S4x2048x3.rank)
  concatenates_S4x2048x3_S4x2048x1_S4x2048x4_d2 : Shape.Concatenates [S4x2048x3, S4x2048x1] S4x2048x4 2
  transposes_S4x2048x4_S4x4x2048_0_2_1 : S4x2048x4.Transposes [0, 2, 1] S4x4x2048
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  inb_S1x4x2048_S1x4x2048_0_0_0 : ∀ a, (![0, 0, 0] : Fin 3 → Nat) a + S1x4x2048.size a ≤ S1x4x2048.size a
  h_S1x4x2048 : 0 < S1x4x2048.numel
  shapeCasts_S1x4x2048_S4x2048 : S1x4x2048.ShapeCasts S4x2048
  slices_S1024x4_o0_0_S1024x3 : S1024x4.Slices ![0, 0] S1024x3
  reduces_S1024x3_S1024 : S1024x3.Reduces [1] S1024
  shapeCasts_S1024_S1024x1 : S1024.ShapeCasts S1024x1
  bitsLt_bf16_f32 : FTy.bits .bf16 < FTy.bits .f32
  broadcasts_S1024x1_S1024x2048 : S1024x1.Broadcasts S1024x2048
  reduces_S1024x2048_S1024 : S1024x2048.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024 : S1x1024x1.ShapeCasts S1024
  shapeCasts_S1024_S1x1024x1 : S1024.ShapeCasts S1x1024x1
  reduces_S1024x2048_S2048 : S1024x2048.Reduces [0] S2048
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048 : S1x2048x1.ShapeCasts S2048
  shapeCasts_S2048_S1x2048x1 : S2048.ShapeCasts S1x2048x1
  shapeCasts_S4x16384x1_S4x16384 : S4x16384x1.ShapeCasts S4x16384
  shapeCasts_S4x2048x1_S4x2048 : S4x2048x1.ShapeCasts S4x2048
  bcast_S_S4x16384 : S_.BroadcastsInDim S4x16384 (![] : Fin 0 → Fin S4x16384.rank)
  bcast_S_S4x2048 : S_.BroadcastsInDim S4x2048 (![] : Fin 0 → Fin S4x2048.rank)
  reducesTo_S4x16384_S4_d1 : S4x16384.ReducesTo [1] S4
  bcast_S_S4 : S_.BroadcastsInDim S4 (![] : Fin 0 → Fin S4.rank)
  reducesTo_S4x2048_S4_d1 : S4x2048.ReducesTo [1] S4
  reducesTo_S4_S_d0 : S4.ReducesTo [0] S_
  dot_S1024x4_S4x2048_S1024x2048_1_0_0_1_n_n_wf : DotDims.WF S1024x4 S4x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4.size a ≤ S4x16384x4.size a
  hwx0_0 : ∀ i : grid0.Coords, EltTy.bits .f32 = 32 ∨ (Rect.block (s := S4x16384x4) S1x1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2048.size a ≤ S4x4x2048.size a
  hwx0_1 : ∀ i : grid0.Coords, EltTy.bits .f32 = 32 ∨ (Rect.block (s := S4x4x2048) S1x4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x16384x1.size a
  hwx0_2 : ∀ i : grid0.Coords, EltTy.bits .f32 = 32 ∨ (Rect.block (s := S4x16384x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S4x2048x1.size a
  hwx0_3 : ∀ i : grid0.Coords, EltTy.bits .f32 = 32 ∨ (Rect.block (s := S4x2048x1) S1x2048x1.size (cc0_transform_3 i) (hinb0_3 i)).WholeWords (EltTy.packing .f32)

variable [Facts₀]

def dot_S1024x4_S4x2048_S1024x2048_1_0_0_1_n_n : DotDims S1024x4 S4x2048 S1024x2048 where
  lhsContracting := [1]
  rhsContracting := [0]
  lhsNonContracting := [0]
  rhsNonContracting := [1]
  lhsBatch := []
  rhsBatch := []
  wf := dot_S1024x4_S4x2048_S1024x2048_1_0_0_1_n_n_wf

abbrev win0_0 : Pipeline.Window sig grid0 :=
  Pipeline.Window.ofSpec (Memref.whole main_v2) S1x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4x16384x4 : Shape := ⟨3, ![4, 16384, 4]⟩
abbrev S4x2048x3 : Shape := ⟨3, ![4, 2048, 3]⟩
abbrev S4x16384x3 : Shape := ⟨3, ![4, 16384, 3]⟩
abbrev S_ : Shape := ⟨0, ![]⟩
abbrev S4x16384 : Shape := ⟨2, ![4, 16384]⟩
abbrev S4x2048 : Shape := ⟨2, ![4, 2048]⟩
abbrev S4x16384x2048 : Shape := ⟨3, ![4, 16384, 2048]⟩
abbrev S4x16384x1 : Shape := ⟨3, ![4, 16384, 1]⟩
abbrev S4x1x2048 : Shape := ⟨3, ![4, 1, 2048]⟩
abbrev S4 : Shape := ⟨1, ![4]⟩

abbrev nBuf : Space → Nat
  | .hbm => 51
  | .vmem => 0
  | .smem => 0
  | _ => 0

abbrev bufTy : (tb : Table) → Fin (tcTables nBuf tb) → BufTy
  | .hbm, ⟨0, _⟩ => ⟨S4x16384x4, .f32⟩
  | .hbm, ⟨1, _⟩ => ⟨S4x2048x3, .f32⟩
  | .hbm, ⟨2, _⟩ => ⟨S4x16384x3, .f32⟩
  | .hbm, ⟨3, _⟩ => ⟨S4x16384x3, .f32⟩
  | .hbm, ⟨4, _⟩ => ⟨S_, .f32⟩
  | .hbm, ⟨5, _⟩ => ⟨S4x16384, .f32⟩
  | .hbm, ⟨6, _⟩ => ⟨S4x2048x3, .f32⟩
  | .hbm, ⟨7, _⟩ => ⟨S_, .f32⟩
  | .hbm, ⟨8, _⟩ => ⟨S4x2048, .f32⟩
  | .hbm, ⟨9, _⟩ => ⟨S4x16384x2048, .f32⟩
  | .hbm, ⟨10, _⟩ => ⟨S4x16384x1, .f32⟩
  | .hbm, ⟨11, _⟩ => ⟨S4x1x2048, .f32⟩
  | .hbm, ⟨12, _⟩ => ⟨S4x16384x2048, .f32⟩
  | .hbm, ⟨13, _⟩ => ⟨S4x16384x2048, .f32⟩
  | .hbm, ⟨14, _⟩ => ⟨S4x16384x2048, .f32⟩
  | .hbm, ⟨15, _⟩ => ⟨S_, .f32⟩
  | .hbm, ⟨16, _⟩ => ⟨S4x16384x2048, .f32⟩
  | .hbm, ⟨17, _⟩ => ⟨S4x16384x2048, .f32⟩
  | .hbm, ⟨18, _⟩ => ⟨S4x16384x2048, .f32⟩
  | .hbm, ⟨19, _⟩ => ⟨S_, .f32⟩
  | .hbm, ⟨20, _⟩ => ⟨S4x16384x2048, .f32⟩
  | .hbm, ⟨21, _⟩ => ⟨S4x16384x2048, .f32⟩
  | .hbm, ⟨22, _⟩ => ⟨S4x16384x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x16384, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_cst_13 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  slices_S4x16384x4_S4x16384x3_0_0_0 : S4x16384x4.Slices ![0, 0, 0] S4x16384x3
  reducesTo_S4x16384x3_S4x16384_d2 : S4x16384x3.ReducesTo [2] S4x16384
  h_S_ : 0 < S_.numel
  reducesTo_S4x2048x3_S4x2048_d2 : S4x2048x3.ReducesTo [2] S4x2048
  bcast_S4x16384_S4x16384x1_0_1 : S4x16384.BroadcastsInDim S4x16384x1 (![0, 1] : Fin 2 → Fin S4x16384x1.rank)
  bcast_S4x2048_S4x1x2048_0_2 : S4x2048.BroadcastsInDim S4x1x2048 (![0, 2] : Fin 2 → Fin S4x1x2048.rank)
  bcast_S4x16384x1_S4x16384x2048_0_1_2 : S4x16384x1.BroadcastsInDim S4x16384x2048 (![0, 1, 2] : Fin 3 → Fin S4x16384x2048.rank)
  bcast_S4x1x2048_S4x16384x2048_0_1_2 : S4x1x2048.BroadcastsInDim S4x16384x2048 (![0, 1, 2] : Fin 3 → Fin S4x16384x2048.rank)
  bcast_S_S4x16384x2048 : S_.BroadcastsInDim S4x16384x2048 (![] : Fin 0 → Fin S4x16384x2048.rank)
  reducesTo_S4x16384x2048_S4x2048_d1 : S4x16384x2048.ReducesTo [1] S4x2048
  reducesTo_S4x16384x2048_S4x16384_d2 : S4x16384x2048.ReducesTo [2] S4x16384
  reducesTo_S4x2048_S4_d1 : S4x2048.ReducesTo [1] S4
  bcast_S_S4 : S_.BroadcastsInDim S4 (![] : Fin 0 → Fin S4.rank)
  reducesTo_S4x16384_S4_d1 : S4x16384.ReducesTo [1] S4
  reducesTo_S4_S_d0 : S4.ReducesTo [0] S_
  dot_S4x16384x3_S4x2048x3_S4x16384x2048_2_2_1_1_0_0_wf : DotDims.WF S4x16384x3 S4x2048x3 S4x16384x2048 [2] [2] [1] [1] [0] [0]

variable [Facts₀]

def dot_S4x16384x3_S4x2048x3_S4x16384x2048_2_2_1_1_0_0 : DotDims S4x16384x3 S4x2048x3 S4x16384x2048 where
  lhsContracting := [2]
  rhsContracting := [2]
  lhsNonContracting := [1]
  rhsNonContracting := [1]
  lhsBatch := [0]
  rhsBatch := [0]
  wf := dot_S4x16384x3_S4x2048x3_S4x16384x2048_2_2_1_1_0_0_wf

class Facts : Prop extends Facts₀ where

variable [Facts]
-- ==== Proof.K.Cases.lean ====
/-
  The grid of the distance kernel is 4 batches by 16 tiles of 1024 sample points; point `t` of the 64 is batch
  `t / 16`, tile `t % 16`. The body keeps, per batch, a running minimum over the sample tiles of the squared
  distances to each of the 2048 surface points: at a batch's FIRST tile it stores the tile's column minima, at
  every LATER tile the minimum of what it holds and the tile's column minima. This module states the two
  branch conditions in closed form over the 64 points, that at every point exactly one of them holds (so the
  column-minimum block is written at every point), and names the buffers the body is run on.
-/
import proofs.«166338_j70480413328153_2_alg».proof.Proof.Gen.Kernel.Frame
import proofs.«166338_j70480413328153_2_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch is taken exactly at a batch's first tile. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch is taken exactly at the later tiles of a batch. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- A tile index is zero or positive: one of the two branches stores the column-minimum block at every point,
    whatever the batch. -/
theorem colmin_live : ∀ i : grid0.Coords, cfg0.idle 3 i = false := by
  intro i
  have key : ∀ n : Fin 16,
      (!(Scalar.cmpi .ne (Scalar.extui (Scalar.cmpi .eq (BitVec.ofNat 32 n.val) 0#32)) 0#32 == 1#1)
        && !(Scalar.cmpi .ne (Scalar.extui (Scalar.cmpi .sgt (BitVec.ofNat 32 n.val) 0#32)) 0#32 == 1#1)) = false := by
    decide +kernel
  exact key (i 1)

/-- The other three windows are written (or only read) at every point. -/
theorem live0 : ∀ i : grid0.Coords, cfg0.idle 0 i = false := fun _ => rfl
theorem live1 : ∀ i : grid0.Coords, cfg0.idle 1 i = false := fun _ => rfl
theorem live2 : ∀ i : grid0.Coords, cfg0.idle 2 i = false := fun _ => rfl

/-- One buffer of each output window, through which its contents are stated. -/
abbrev VRow : View sig .tc .vmem S1x1024x1 .f32 := (Memref.whole cc0_stg2_0 : Memref sig .tc .vmem S1x1024x1 .f32).view
abbrev VCol : View sig .tc .vmem S1x2048x1 .f32 := (Memref.whole cc0_stg3_0 : Memref sig .tc .vmem S1x2048x1 .f32).view

/-- Each window's current buffer at point `t`, and that it is a whole buffer. -/
abbrev ms0 (t : Fin cfg0.N) : Memref sig .tc .vmem S1x1024x4 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)

end Cert.Kernel.Body

end
-- ==== Proof.K.RunFirst.lean ====
/-
  The body at a batch's FIRST sample tile. From the two input blocks (the tile's augmented sample points and the
  batch's augmented surface points) it stores the tile's row minima into the row-minimum block and the tile's
  column minima into the column-minimum block, overwriting whatever either block held. What each block ends
  with is recorded as the list of pieces the stores wrote.
-/
import proofs.«166338_j70480413328153_2_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the tile index is zero: on whole buffers, the inputs at their contents and the two outputs
    at anything, the body runs to the end, leaves the inputs as they were and each output's buffer with the
    listed pieces written. -/
noncomputable def runFirst (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : k0_cond1 i = 1#1) (hc2 : ¬ k0_cond2 i = 1#1)
    (x0 : Vec F S1x1024x4 .f32) (x1 : Vec F S1x4x2048 .f32) :
    Σ' (L2 : List (View.Piece (Elt F) S1x1024x1 .f32)), { L3 : List (View.Piece (Elt F) S1x2048x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.K.RunLater.lean ====
/-
  The body at a LATER sample tile of a batch. The row-minimum block is overwritten with the tile's row minima as
  before; the column-minimum block, which holds the running minima `acc` over the batch's earlier tiles, is read
  back and stored again as the minimum of `acc` and the tile's column minima.
-/
import proofs.«166338_j70480413328153_2_alg».proof.Proof.K.RunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the tile index is positive: on whole buffers, the inputs at their contents, the row-minimum
    block at anything and the column-minimum block at the running minima `acc`, the body runs to the end, leaves
    the inputs as they were and each output's buffer with the listed pieces written. -/
noncomputable def runLater (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : ¬ k0_cond1 i = 1#1) (hc2 : k0_cond2 i = 1#1)
    (x0 : Vec F S1x1024x4 .f32) (x1 : Vec F S1x4x2048 .f32) (acc : Vec F S1x2048x1 .f32) :
    Σ' (L2 : List (View.Piece (Elt F) S1x1024x1 .f32)), { L3 : List (View.Piece (Elt F) S1x2048x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.K.Data.lean ====
/-
  The run of the distance kernel's pipeline over its 64 grid points, and what its two output blocks hold after
  each point.

  The row-minimum block of point `t` is written whole at `t` and written back to its array at `t`. The
  column-minimum block belongs to a whole batch: its index map ignores the tile coordinate, so the block is
  written back only after the batch's last tile (`t % 16 = 15`) and between two tiles of one batch the body
  finds in it what it left at the tile before. Its contents are therefore defined by recursion on the point:
  at a batch's first tile what the resetting branch stores, at a later tile what the minimising branch stores
  over the contents at `t - 1`. With these contents as the proof data, the body's triple at every point is the
  first-tile run or the later-tile run according to `t % 16`, and the launch theorem for a region followed by
  host operations gives the run of the whole program.
-/
import proofs.«166338_j70480413328153_2_alg».proof.Proof.K.RunLater

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each case cover the block they write -/

theorem coverFirst2 (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : k0_cond1 i = 1#1) (hc2 : ¬ k0_cond2 i = 1#1) (x0 : Vec F S1x1024x4 .f32) (x1 : Vec F S1x4x2048 .f32) (y : S1x1024x1.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S1x1024x1.size (by sl_kernel_rfl) y

theorem coverFirst3 (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : k0_cond1 i = 1#1) (hc2 : ¬ k0_cond2 i = 1#1) (x0 : Vec F S1x1024x4 .f32) (x1 : Vec F S1x4x2048 .f32) (y : S1x2048x1.Idx) :
    ∃ pc ∈ (runFirst c i arg2 harg2 arg3 harg3 arg4 harg4 arg5 harg5 hc1 hc2 x0 x1).2.1, y ∈ pc.1.set :=
  View.cover_of_tiledL (runFirst c i arg2 harg2 arg3 harg3 arg4 harg4 arg5 harg5 hc1 hc2 x0 x1).2.1 S1x2048x1.size (by sl_kernel_rfl) y

theorem coverLater2 (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : ¬ k0_cond1 i = 1#1) (hc2 : k0_cond2 i = 1#1) (x0 : Vec F S1x1024x4 .f32) (x1 : Vec F S1x4x2048 .f32) (acc : Vec F S1x2048x1 .f32) (y : S1x1024x1.Idx) :
    ∃ pc ∈ (runLater c i arg2 harg2 arg3 harg3 arg4 harg4 arg5 harg5 hc1 hc2 x0 x1 acc).1, y ∈ pc.1.set :=
  View.cover_of_tiledL (runLater c i arg2 harg2 arg3 harg3 arg4 harg4 arg5 harg5 hc1 hc2 x0 x1 acc).1 S1x1024x1.size (by sl_kernel_rfl) y

theorem coverLater3 (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : ¬ k0_cond1 i = 1#1) (hc2 : k0_cond2 i = 1#1) (x0 : Vec F S1x1024x4 .f32) (x1 : Vec F S1x4x2048 .f32) (acc : Vec F S1x2048x1 .f32) (y : S1x2048x1.Idx) :
    ∃ pc ∈ (runLater c i arg2 harg2 arg3 harg3 arg4 harg4 arg5 harg5 hc1 hc2 x0 x1 acc).2.1, y ∈ pc.1.set :=
  View.cover_of_tiledL (runLater c i arg2 harg2 arg3 harg3 arg4 harg4 arg5 harg5 hc1 hc2 x0 x1 acc).2.1 S1x2048x1.size (by sl_kernel_rfl) y

/-! ## What each case leaves in the two output blocks, at a point of the grid -/

/-- The row-minimum block after a batch's first tile `t`. -/
def rowFirstAt (c : Dev nD) (t : Fin cfg0.N) (h0 : t.val % 16 = 0) : Vec F S1x1024x1 .f32 :=
  VRow.read (Elt F) (VRow.writes (Elt F) VRow.junk
    (runFirst c (grid0.coords t) (ms0 t) (hs0 t) (ms1 t) (hs1 t) (ms2 t) (hs2 t) (ms3 t) (hs3 t)
      ((first_iff t).mpr h0) (fun h => (later_iff t).mp h h0) (iblk m c 0 t) (iblk m c 1 t)).1)

/-- The column-minimum block after a batch's first tile `t`. -/
def colFirstAt (c : Dev nD) (t : Fin cfg0.N) (h0 : t.val % 16 = 0) : Vec F S1x2048x1 .f32 :=
  VCol.read (Elt F) (VCol.writes (Elt F) VCol.junk
    (runFirst c (grid0.coords t) (ms0 t) (hs0 t) (ms1 t) (hs1 t) (ms2 t) (hs2 t) (ms3 t) (hs3 t)
      ((first_iff t).mpr h0) (fun h => (later_iff t).mp h h0) (iblk m c 0 t) (iblk m c 1 t)).2.1)

/-- The row-minimum block after a later tile `t`, the column-minimum block having held `acc`. -/
def rowLaterAt (c : Dev nD) (t : Fin cfg0.N) (h0 : ¬ t.val % 16 = 0) (acc : Vec F S1x2048x1 .f32) : Vec F S1x1024x1 .f32 :=
  VRow.read (Elt F) (VRow.writes (Elt F) VRow.junk
    (runLater c (grid0.coords t) (ms0 t) (hs0 t) (ms1 t) (hs1 t) (ms2 t) (hs2 t) (ms3 t) (hs3 t)
      (fun h => h0 ((first_iff t).mp h)) ((later_iff t).mpr h0) (iblk m c 0 t) (iblk m c 1 t) acc).1)

/-- The column-minimum block after a later tile `t`, having held `acc` before it. -/
def colLaterAt (c : Dev nD) (t : Fin cfg0.N) (h0 : ¬ t.val % 16 = 0) (acc : Vec F S1x2048x1 .f32) : Vec F S1x2048x1 .f32 :=
  VCol.read (Elt F) (VCol.writes (Elt F) VCol.junk
    (runLater c (grid0.coords t) (ms0 t) (hs0 t) (ms1 t) (hs1 t) (ms2 t) (hs2 t) (ms3 t) (hs3 t)
      (fun h => h0 ((first_iff t).mp h)) ((later_iff t).mpr h0) (iblk m c 0 t) (iblk m c 1 t) acc).2.1)

/-- THE RUNNING MINIMUM. The column-minimum block after the body at position `n`: reset at a batch's first tile,
    otherwise the later-tile result over what position `n - 1` left. -/
def colAt (c : Dev nD) : (n : ℕ) → n < cfg0.N → Vec F S1x2048x1 .f32
  | 0, hn => colFirstAt m c ⟨0, hn⟩ (Nat.zero_mod _)
  | n + 1, hn =>
    if h0 : (n + 1) % 16 = 0 then colFirstAt m c ⟨n + 1, hn⟩ h0
    else colLaterAt m c ⟨n + 1, hn⟩ h0 (colAt c n (Nat.lt_of_succ_lt hn))

theorem colAt_first (c : Dev nD) (t : Fin cfg0.N) (h0 : t.val % 16 = 0) :
    colAt m c t.val t.isLt = colFirstAt m c t h0 := by
  obtain ⟨n, hn⟩ := t
  cases n with
  | zero => exact rfl
  | succ n => exact (dif_pos h0).trans rfl

theorem colAt_later (c : Dev nD) (t : Fin cfg0.N) (h0 : ¬ t.val % 16 = 0) :
    colAt m c t.val t.isLt
      = colLaterAt m c t h0 (colAt m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The row-minimum block after the body at point `t`. -/
def rowAt (c : Dev nD) (t : Fin cfg0.N) : Vec F S1x1024x1 .f32 :=
  if h0 : t.val % 16 = 0 then rowFirstAt m c t h0
  else rowLaterAt m c t h0 (colAt m c (t.val - 1) (Nat.lt_of_le_of_lt (Nat.sub_le _ _) t.isLt))

theorem rowAt_first (c : Dev nD) (t : Fin cfg0.N) (h0 : t.val % 16 = 0) : rowAt m c t = rowFirstAt m c t h0 := dif_pos h0
theorem rowAt_later (c : Dev nD) (t : Fin cfg0.N) (h0 : ¬ t.val % 16 = 0) :
    rowAt m c t = rowLaterAt m c t h0 (colAt m c (t.val - 1) (Nat.lt_of_le_of_lt (Nat.sub_le _ _) t.isLt)) := dif_neg h0

/-! ## The pipeline's proof data -/

/-- On core `c`: the arrays as the region finds them; after the body at point `t` each input's buffer at its block,
    the row-minimum buffer at `rowAt` and the column-minimum buffer at `colAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowAt m c t
    | ⟨3, _⟩ => colAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowAt m c t := by dsimp only [dats]
theorem after_3 (c : Dev nD) (t : Fin cfg0.N) : (dats m 0 c).after 3 t = colAt m c t.val t.isLt := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later tile of a batch the column-minimum buffer holds what the body left at the tile before: the point is
    not the first, and the block was not written back in between (that happens only after tile 15). -/
theorem before_3_later (c : Dev nD) (t : Fin cfg0.N) (h0 : ¬ t.val % 16 = 0) (d) :
    (dats m 0 c).before 3 t d = colAt m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    colmin_live (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; `t % 16` says which branch the point takes; at a
    later tile the column-minimum buffer holds the contents at `t - 1`; so the case's run applies, and each output
    buffer ends at the stated contents because the case's stores cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 16 = 0
  · rw [colAt_first m c t h0, rowAt_first m c t h0]
    unfold colFirstAt rowFirstAt
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => (later_iff t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _)
    unfold owns; iexists _; isplitr
    swap; · iexact H3
    ipureintro; exact View.read_writes_of_cover _ _ _ _ _ (coverFirst3 c _ _ _ _ _ _ _ _ _ _ _ _ _)
  · rw [colAt_later m c t h0, rowAt_later m c t h0]
    simp only [before_3_later m c t h0]
    unfold colLaterAt rowLaterAt
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) ((later_iff t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _)
    unfold owns; iexists _; isplitr
    swap; · iexact H3
    ipureintro; exact View.read_writes_of_cover _ _ _ _ _ (coverLater3 c _ _ _ _ _ _ _ _ _ _ _ _ _ _)

end Cert.Kernel.Body

end
-- ==== Proof.K.Frame.lean ====
/-
  The launch of the distance kernel's pipeline. With the proof data of the previous module, the body's triple at every
  point is the library's body obligation (the column-minimum window being written at every point, the obligation asks of
  it what it asks of the others); the launch theorem for a region followed by host operations then gives that every weakly
  fair execution of the program terminates without a fault, each array of the pipeline ending at what the proof data
  says, and from that run the frame: the two argument arrays end as they began.
-/
import proofs.«166338_j70480413328153_2_alg».proof.Proof.K.Data

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: the column-minimum window is idle nowhere. -/
theorem body_obligation (c : Dev nD) : BodyObligation (dats (F := F) m 0 c) (defs₀ (F := F)) Variants.none () Set.univ := fun t => by
  rw [bigSep_W0, bigSep_W0]
  rw [colmin_live (cfg0.grid.coords t)]
  try rw [live0 (cfg0.grid.coords t)]
  try rw [live1 (cfg0.grid.coords t)]
  try rw [live2 (cfg0.grid.coords t)]
  exact sound_body m c t

/-! ## The run and the frame -/

set_option backward.isDefEq.respectTransparency.types false in
/-- Every weakly fair execution of the program terminates, and in every final state each array of the pipeline holds
    what the proof data says and every other buffer what the host operations after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Cases.lean ====
/-
  The grid of the distance kernel is 4 batches by 16 tiles of 1024 sample points; point `t` of the 64 is batch
  `t / 16`, tile `t % 16`. The body keeps, per batch, a running minimum over the sample tiles of the squared
  distances to each of the 2048 surface points: at a batch's FIRST tile it stores the tile's column minima, at
  every LATER tile the minimum of what it holds and the tile's column minima. This module states the two
  branch conditions in closed form over the 64 points, that at every point exactly one of them holds (so the
  column-minimum block is written at every point), and names the buffers the body is run on.
-/
import proofs.«166338_j70480413328153_2_alg».proof.Proof.Gen.KernelIdeal.Frame
import proofs.«166338_j70480413328153_2_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch is taken exactly at a batch's first tile. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch is taken exactly at the later tiles of a batch. -/
theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- A tile index is zero or positive: one of the two branches stores the column-minimum block at every point,
    whatever the batch. -/
theorem colmin_live : ∀ i : grid0.Coords, cfg0.idle 3 i = false := by
  intro i
  have key : ∀ n : Fin 16,
      (!(Scalar.cmpi .ne (Scalar.extui (Scalar.cmpi .eq (BitVec.ofNat 32 n.val) 0#32)) 0#32 == 1#1)
        && !(Scalar.cmpi .ne (Scalar.extui (Scalar.cmpi .sgt (BitVec.ofNat 32 n.val) 0#32)) 0#32 == 1#1)) = false := by
    decide +kernel
  exact key (i 1)

/-- The other three windows are written (or only read) at every point. -/
theorem live0 : ∀ i : grid0.Coords, cfg0.idle 0 i = false := fun _ => rfl
theorem live1 : ∀ i : grid0.Coords, cfg0.idle 1 i = false := fun _ => rfl
theorem live2 : ∀ i : grid0.Coords, cfg0.idle 2 i = false := fun _ => rfl

/-- One buffer of each output window, through which its contents are stated. -/
abbrev VRow : View sig .tc .vmem S1x1024x1 .f32 := (Memref.whole cc0_stg2_0 : Memref sig .tc .vmem S1x1024x1 .f32).view
abbrev VCol : View sig .tc .vmem S1x2048x1 .f32 := (Memref.whole cc0_stg3_0 : Memref sig .tc .vmem S1x2048x1 .f32).view

/-- Each window's current buffer at point `t`, and that it is a whole buffer. -/
abbrev ms0 (t : Fin cfg0.N) : Memref sig .tc .vmem S1x1024x4 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)

end Cert.KernelIdeal.Body

end
-- ==== Proof.KI.RunFirst.lean ====
/-
  The body at a batch's FIRST sample tile. From the two input blocks (the tile's augmented sample points and the
  batch's augmented surface points) it stores the tile's row minima into the row-minimum block and the tile's
  column minima into the column-minimum block, overwriting whatever either block held. What each block ends
  with is recorded as the list of pieces the stores wrote.
-/
import proofs.«166338_j70480413328153_2_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the tile index is zero: on whole buffers, the inputs at their contents and the two outputs
    at anything, the body runs to the end, leaves the inputs as they were and each output's buffer with the
    listed pieces written. -/
noncomputable def runFirst (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : k0_cond1 i = 1#1) (hc2 : ¬ k0_cond2 i = 1#1)
    (x0 : Vec F S1x1024x4 .f32) (x1 : Vec F S1x4x2048 .f32) :
    Σ' (L2 : List (View.Piece (Elt F) S1x1024x1 .f32)), { L3 : List (View.Piece (Elt F) S1x2048x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KI.RunLater.lean ====
/-
  The body at a LATER sample tile of a batch. The row-minimum block is overwritten with the tile's row minima as
  before; the column-minimum block, which holds the running minima `acc` over the batch's earlier tiles, is read
  back and stored again as the minimum of `acc` and the tile's column minima.
-/
import proofs.«166338_j70480413328153_2_alg».proof.Proof.KI.RunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the tile index is positive: on whole buffers, the inputs at their contents, the row-minimum
    block at anything and the column-minimum block at the running minima `acc`, the body runs to the end, leaves
    the inputs as they were and each output's buffer with the listed pieces written. -/
noncomputable def runLater (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : ¬ k0_cond1 i = 1#1) (hc2 : k0_cond2 i = 1#1)
    (x0 : Vec F S1x1024x4 .f32) (x1 : Vec F S1x4x2048 .f32) (acc : Vec F S1x2048x1 .f32) :
    Σ' (L2 : List (View.Piece (Elt F) S1x1024x1 .f32)), { L3 : List (View.Piece (Elt F) S1x2048x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KI.Data.lean ====
/-
  The run of the distance kernel's pipeline over its 64 grid points, and what its two output blocks hold after
  each point.

  The row-minimum block of point `t` is written whole at `t` and written back to its array at `t`. The
  column-minimum block belongs to a whole batch: its index map ignores the tile coordinate, so the block is
  written back only after the batch's last tile (`t % 16 = 15`) and between two tiles of one batch the body
  finds in it what it left at the tile before. Its contents are therefore defined by recursion on the point:
  at a batch's first tile what the resetting branch stores, at a later tile what the minimising branch stores
  over the contents at `t - 1`. With these contents as the proof data, the body's triple at every point is the
  first-tile run or the later-tile run according to `t % 16`, and the launch theorem for a region followed by
  host operations gives the run of the whole program.
-/
import proofs.«166338_j70480413328153_2_alg».proof.Proof.KI.RunLater

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each case cover the block they write -/

theorem coverFirst2 (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : k0_cond1 i = 1#1) (hc2 : ¬ k0_cond2 i = 1#1) (x0 : Vec F S1x1024x4 .f32) (x1 : Vec F S1x4x2048 .f32) (y : S1x1024x1.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S1x1024x1.size (by sl_kernel_rfl) y

theorem coverFirst3 (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : k0_cond1 i = 1#1) (hc2 : ¬ k0_cond2 i = 1#1) (x0 : Vec F S1x1024x4 .f32) (x1 : Vec F S1x4x2048 .f32) (y : S1x2048x1.Idx) :
    ∃ pc ∈ (runFirst c i arg2 harg2 arg3 harg3 arg4 harg4 arg5 harg5 hc1 hc2 x0 x1).2.1, y ∈ pc.1.set :=
  View.cover_of_tiledL (runFirst c i arg2 harg2 arg3 harg3 arg4 harg4 arg5 harg5 hc1 hc2 x0 x1).2.1 S1x2048x1.size (by sl_kernel_rfl) y

theorem coverLater2 (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : ¬ k0_cond1 i = 1#1) (hc2 : k0_cond2 i = 1#1) (x0 : Vec F S1x1024x4 .f32) (x1 : Vec F S1x4x2048 .f32) (acc : Vec F S1x2048x1 .f32) (y : S1x1024x1.Idx) :
    ∃ pc ∈ (runLater c i arg2 harg2 arg3 harg3 arg4 harg4 arg5 harg5 hc1 hc2 x0 x1 acc).1, y ∈ pc.1.set :=
  View.cover_of_tiledL (runLater c i arg2 harg2 arg3 harg3 arg4 harg4 arg5 harg5 hc1 hc2 x0 x1 acc).1 S1x1024x1.size (by sl_kernel_rfl) y

theorem coverLater3 (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : ¬ k0_cond1 i = 1#1) (hc2 : k0_cond2 i = 1#1) (x0 : Vec F S1x1024x4 .f32) (x1 : Vec F S1x4x2048 .f32) (acc : Vec F S1x2048x1 .f32) (y : S1x2048x1.Idx) :
    ∃ pc ∈ (runLater c i arg2 harg2 arg3 harg3 arg4 harg4 arg5 harg5 hc1 hc2 x0 x1 acc).2.1, y ∈ pc.1.set :=
  View.cover_of_tiledL (runLater c i arg2 harg2 arg3 harg3 arg4 harg4 arg5 harg5 hc1 hc2 x0 x1 acc).2.1 S1x2048x1.size (by sl_kernel_rfl) y

/-! ## What each case leaves in the two output blocks, at a point of the grid -/

/-- The row-minimum block after a batch's first tile `t`. -/
def rowFirstAt (c : Dev nD) (t : Fin cfg0.N) (h0 : t.val % 16 = 0) : Vec F S1x1024x1 .f32 :=
  VRow.read (Elt F) (VRow.writes (Elt F) VRow.junk
    (runFirst c (grid0.coords t) (ms0 t) (hs0 t) (ms1 t) (hs1 t) (ms2 t) (hs2 t) (ms3 t) (hs3 t)
      ((first_iff t).mpr h0) (fun h => (later_iff t).mp h h0) (iblk m c 0 t) (iblk m c 1 t)).1)

/-- The column-minimum block after a batch's first tile `t`. -/
def colFirstAt (c : Dev nD) (t : Fin cfg0.N) (h0 : t.val % 16 = 0) : Vec F S1x2048x1 .f32 :=
  VCol.read (Elt F) (VCol.writes (Elt F) VCol.junk
    (runFirst c (grid0.coords t) (ms0 t) (hs0 t) (ms1 t) (hs1 t) (ms2 t) (hs2 t) (ms3 t) (hs3 t)
      ((first_iff t).mpr h0) (fun h => (later_iff t).mp h h0) (iblk m c 0 t) (iblk m c 1 t)).2.1)

/-- The row-minimum block after a later tile `t`, the column-minimum block having held `acc`. -/
def rowLaterAt (c : Dev nD) (t : Fin cfg0.N) (h0 : ¬ t.val % 16 = 0) (acc : Vec F S1x2048x1 .f32) : Vec F S1x1024x1 .f32 :=
  VRow.read (Elt F) (VRow.writes (Elt F) VRow.junk
    (runLater c (grid0.coords t) (ms0 t) (hs0 t) (ms1 t) (hs1 t) (ms2 t) (hs2 t) (ms3 t) (hs3 t)
      (fun h => h0 ((first_iff t).mp h)) ((later_iff t).mpr h0) (iblk m c 0 t) (iblk m c 1 t) acc).1)

/-- The column-minimum block after a later tile `t`, having held `acc` before it. -/
def colLaterAt (c : Dev nD) (t : Fin cfg0.N) (h0 : ¬ t.val % 16 = 0) (acc : Vec F S1x2048x1 .f32) : Vec F S1x2048x1 .f32 :=
  VCol.read (Elt F) (VCol.writes (Elt F) VCol.junk
    (runLater c (grid0.coords t) (ms0 t) (hs0 t) (ms1 t) (hs1 t) (ms2 t) (hs2 t) (ms3 t) (hs3 t)
      (fun h => h0 ((first_iff t).mp h)) ((later_iff t).mpr h0) (iblk m c 0 t) (iblk m c 1 t) acc).2.1)

/-- THE RUNNING MINIMUM. The column-minimum block after the body at position `n`: reset at a batch's first tile,
    otherwise the later-tile result over what position `n - 1` left. -/
def colAt (c : Dev nD) : (n : ℕ) → n < cfg0.N → Vec F S1x2048x1 .f32
  | 0, hn => colFirstAt m c ⟨0, hn⟩ (Nat.zero_mod _)
  | n + 1, hn =>
    if h0 : (n + 1) % 16 = 0 then colFirstAt m c ⟨n + 1, hn⟩ h0
    else colLaterAt m c ⟨n + 1, hn⟩ h0 (colAt c n (Nat.lt_of_succ_lt hn))

theorem colAt_first (c : Dev nD) (t : Fin cfg0.N) (h0 : t.val % 16 = 0) :
    colAt m c t.val t.isLt = colFirstAt m c t h0 := by
  obtain ⟨n, hn⟩ := t
  cases n with
  | zero => exact rfl
  | succ n => exact (dif_pos h0).trans rfl

theorem colAt_later (c : Dev nD) (t : Fin cfg0.N) (h0 : ¬ t.val % 16 = 0) :
    colAt m c t.val t.isLt
      = colLaterAt m c t h0 (colAt m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The row-minimum block after the body at point `t`. -/
def rowAt (c : Dev nD) (t : Fin cfg0.N) : Vec F S1x1024x1 .f32 :=
  if h0 : t.val % 16 = 0 then rowFirstAt m c t h0
  else rowLaterAt m c t h0 (colAt m c (t.val - 1) (Nat.lt_of_le_of_lt (Nat.sub_le _ _) t.isLt))

theorem rowAt_first (c : Dev nD) (t : Fin cfg0.N) (h0 : t.val % 16 = 0) : rowAt m c t = rowFirstAt m c t h0 := dif_pos h0
theorem rowAt_later (c : Dev nD) (t : Fin cfg0.N) (h0 : ¬ t.val % 16 = 0) :
    rowAt m c t = rowLaterAt m c t h0 (colAt m c (t.val - 1) (Nat.lt_of_le_of_lt (Nat.sub_le _ _) t.isLt)) := dif_neg h0

/-! ## The pipeline's proof data -/

/-- On core `c`: the arrays as the region finds them; after the body at point `t` each input's buffer at its block,
    the row-minimum buffer at `rowAt` and the column-minimum buffer at `colAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowAt m c t
    | ⟨3, _⟩ => colAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowAt m c t := by dsimp only [dats]
theorem after_3 (c : Dev nD) (t : Fin cfg0.N) : (dats m 0 c).after 3 t = colAt m c t.val t.isLt := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- At a later tile of a batch the column-minimum buffer holds what the body left at the tile before: the point is
    not the first, and the block was not written back in between (that happens only after tile 15). -/
theorem before_3_later (c : Dev nD) (t : Fin cfg0.N) (h0 : ¬ t.val % 16 = 0) (d) :
    (dats m 0 c).before 3 t d = colAt m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    colmin_live (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; `t % 16` says which branch the point takes; at a
    later tile the column-minimum buffer holds the contents at `t - 1`; so the case's run applies, and each output
    buffer ends at the stated contents because the case's stores cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 16 = 0
  · rw [colAt_first m c t h0, rowAt_first m c t h0]
    unfold colFirstAt rowFirstAt
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => (later_iff t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _)
    unfold owns; iexists _; isplitr
    swap; · iexact H3
    ipureintro; exact View.read_writes_of_cover _ _ _ _ _ (coverFirst3 c _ _ _ _ _ _ _ _ _ _ _ _ _)
  · rw [colAt_later m c t h0, rowAt_later m c t h0]
    simp only [before_3_later m c t h0]
    unfold colLaterAt rowLaterAt
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) ((later_iff t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _)
    unfold owns; iexists _; isplitr
    swap; · iexact H3
    ipureintro; exact View.read_writes_of_cover _ _ _ _ _ (coverLater3 c _ _ _ _ _ _ _ _ _ _ _ _ _ _)

end Cert.KernelIdeal.Body

end
-- ==== Proof.KI.Frame.lean ====
/-
  The launch of the distance kernel's pipeline. With the proof data of the previous module, the body's triple at every
  point is the library's body obligation (the column-minimum window being written at every point, the obligation asks of
  it what it asks of the others); the launch theorem for a region followed by host operations then gives that every weakly
  fair execution of the program terminates without a fault, each array of the pipeline ending at what the proof data
  says, and from that run the frame: the two argument arrays end as they began.
-/
import proofs.«166338_j70480413328153_2_alg».proof.Proof.KI.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point: the column-minimum window is idle nowhere. -/
theorem body_obligation (c : Dev nD) : BodyObligation (dats (F := F) m 0 c) (defs₀ (F := F)) Variants.none () Set.univ := fun t => by
  rw [bigSep_W0, bigSep_W0]
  rw [colmin_live (cfg0.grid.coords t)]
  try rw [live0 (cfg0.grid.coords t)]
  try rw [live1 (cfg0.grid.coords t)]
  try rw [live2 (cfg0.grid.coords t)]
  exact sound_body m c t

/-! ## The run and the frame -/

set_option backward.isDefEq.respectTransparency.types false in
/-- Every weakly fair execution of the program terminates, and in every final state each array of the pipeline holds
    what the proof data says and every other buffer what the host operations after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end without a fault and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Pieces.lean ====
/-
  What the body's stores leave in the two output blocks, as values of its inputs.

  Each branch writes each output block by ONE store of the whole block, and every load reads a whole buffer, so what a
  block holds after the body is the stored value itself: the tile's row minima in the row-minimum block; in the
  column-minimum block the tile's column minima at a batch's first tile, and at a later tile the minimum of the block's
  previous contents and the tile's column minima. The recursion over points that defines the column-minimum block's
  contents is restated over those values.
-/
import proofs.«166338_j70480413328153_2_alg».proof.Proof.KI.Data
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem hz3 : (![0, 0, 0] : Fin 3 → Nat) = fun _ => 0 := funext fun a => by fin_cases a <;> rfl

theorem rowFirst_eq (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : k0_cond1 i = 1#1) (hc2 : ¬ k0_cond2 i = 1#1) (x0 : Vec F S1x1024x4 .f32) (x1 : Vec F S1x4x2048 .f32) :
    VRow.read (Elt F) (VRow.writes (Elt F) VRow.junk (runFirst c i arg2 harg2 arg3 harg3 arg4 harg4 arg5 harg5 hc1 hc2 x0 x1).1) = k0_pay2 x0 x1 := by
  rw [View.read_writes_eq_canon _ _ _ (coverFirst2 c i arg2 harg2 arg3 harg3 arg4 harg4 arg5 harg5 hc1 hc2 x0 x1)]
  unfold runFirst
  dsimp only
  rw [View.canon_unit_zero hz3]
  simp only [View.readAt_eq_ld, harg2.read_unread, harg3.read_unread, View.ld_unit_zero (S := S1x1024x4) hz3,
    View.ld_unit_zero (S := S1x4x2048) hz3]

theorem colFirst_eq (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : k0_cond1 i = 1#1) (hc2 : ¬ k0_cond2 i = 1#1) (x0 : Vec F S1x1024x4 .f32) (x1 : Vec F S1x4x2048 .f32) :
    VCol.read (Elt F) (VCol.writes (Elt F) VCol.junk (runFirst c i arg2 harg2 arg3 harg3 arg4 harg4 arg5 harg5 hc1 hc2 x0 x1).2.1) = k0_pay4 x0 x1 := by
  rw [View.read_writes_eq_canon _ _ _ (coverFirst3 c i arg2 harg2 arg3 harg3 arg4 harg4 arg5 harg5 hc1 hc2 x0 x1)]
  unfold runFirst
  dsimp only
  rw [View.canon_unit_zero hz3]
  simp only [View.readAt_eq_ld, harg2.read_unread, harg3.read_unread, View.ld_unit_zero (S := S1x1024x4) hz3,
    View.ld_unit_zero (S := S1x4x2048) hz3]

theorem rowLater_eq (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : ¬ k0_cond1 i = 1#1) (hc2 : k0_cond2 i = 1#1) (x0 : Vec F S1x1024x4 .f32) (x1 : Vec F S1x4x2048 .f32) (acc : Vec F S1x2048x1 .f32) :
    VRow.read (Elt F) (VRow.writes (Elt F) VRow.junk (runLater c i arg2 harg2 arg3 harg3 arg4 harg4 arg5 harg5 hc1 hc2 x0 x1 acc).1) = k0_pay2 x0 x1 := by
  rw [View.read_writes_eq_canon _ _ _ (coverLater2 c i arg2 harg2 arg3 harg3 arg4 harg4 arg5 harg5 hc1 hc2 x0 x1 acc)]
  unfold runLater
  dsimp only
  rw [View.canon_unit_zero hz3]
  simp only [View.readAt_eq_ld, harg2.read_unread, harg3.read_unread, View.ld_unit_zero (S := S1x1024x4) hz3,
    View.ld_unit_zero (S := S1x4x2048) hz3]

theorem colLater_eq (c : Dev nD) (i : grid0.Coords) (arg2 : Memref sig .tc .vmem S1x1024x4 .f32) (harg2 : arg2.IsWhole) (arg3 : Memref sig .tc .vmem S1x4x2048 .f32) (harg3 : arg3.IsWhole) (arg4 : Memref sig .tc .vmem S1x1024x1 .f32) (harg4 : arg4.IsWhole) (arg5 : Memref sig .tc .vmem S1x2048x1 .f32) (harg5 : arg5.IsWhole)
    (hc1 : ¬ k0_cond1 i = 1#1) (hc2 : k0_cond2 i = 1#1) (x0 : Vec F S1x1024x4 .f32) (x1 : Vec F S1x4x2048 .f32) (acc : Vec F S1x2048x1 .f32) :
    VCol.read (Elt F) (VCol.writes (Elt F) VCol.junk (runLater c i arg2 harg2 arg3 harg3 arg4 harg4 arg5 harg5 hc1 hc2 x0 x1 acc).2.1) = k0_pay5 x0 x1 acc := by
  rw [View.read_writes_eq_canon _ _ _ (coverLater3 c i arg2 harg2 arg3 harg3 arg4 harg4 arg5 harg5 hc1 hc2 x0 x1 acc)]
  unfold runLater
  dsimp only
  rw [View.canon_unit_zero hz3]
  simp only [View.readAt_eq_ld, harg2.read_unread, harg3.read_unread, harg5.read_unread, View.ld_unit_zero (S := S1x1024x4) hz3,
    View.ld_unit_zero (S := S1x4x2048) hz3, View.ld_unit_zero (S := S1x2048x1) hz3]

/-- The row-minimum block after point `t` is the tile's row minima, whichever branch the point takes. -/
theorem rowAt_eq (c : Dev nD) (t : Fin cfg0.N) : rowAt m c t = k0_pay2 (iblk m c 0 t) (iblk m c 1 t) := by
  by_cases h0 : t.val % 16 = 0
  · rw [rowAt_first m c t h0]; unfold rowFirstAt; exact rowFirst_eq c _ _ _ _ _ _ _ _ _ _ _ _ _
  · rw [rowAt_later m c t h0]; unfold rowLaterAt; exact rowLater_eq c _ _ _ _ _ _ _ _ _ _ _ _ _ _

/-- The column-minimum block after a batch's first tile: that tile's column minima. -/
theorem colAt_first_eq (c : Dev nD) (t : Fin cfg0.N) (h0 : t.val % 16 = 0) :
    colAt m c t.val t.isLt = k0_pay4 (iblk m c 0 t) (iblk m c 1 t) := by
  rw [colAt_first m c t h0]; unfold colFirstAt; exact colFirst_eq c _ _ _ _ _ _ _ _ _ _ _ _ _

/-- The column-minimum block after a later tile: the minimum of its contents after the tile before and this tile's
    column minima. -/
theorem colAt_later_eq (c : Dev nD) (t : Fin cfg0.N) (h0 : ¬ t.val % 16 = 0) :
    colAt m c t.val t.isLt
      = k0_pay5 (iblk m c 0 t) (iblk m c 1 t) (colAt m c (t.val - 1) (Nat.lt_of_le_of_lt (Nat.sub_le _ _) t.isLt)) := by
  rw [colAt_later m c t h0]; unfold colLaterAt; exact colLater_eq c _ _ _ _ _ _ _ _ _ _ _ _ _ _

end Cert.KernelIdeal.Body

end
-- ==== Proof.LibMinFold.lean ====
/-
  Minima over a finite family of extended reals, as a fold of `min` from `+∞`.

  * A float minimum reduction over ONE axis, read at the exact instance, is at each result index the fold of `min`
    from the accumulator's value over that axis's coordinates (the companion of the library's law for a maximum).
  * Such a fold from `⊤` is the greatest lower bound of the family: `c ≤ fold ↔ ∀ i, c ≤ g i`; so a value with
    that property IS the fold, which is how a minimum accumulated in several steps is identified with the minimum
    over the whole family without reordering anything.
  * `x ↦ sqrt (max x 0)` is monotone on the extended reals and fixes `⊤`, so it commutes with the fold: the square
    root of the clamped minimum is the minimum of the clamped square roots.
-/
import Idealize.ShloMosaic.PureOps.Ideal.Laws
import Mathlib.Data.Finset.Fold
import Mathlib.Data.EReal.Basic

noncomputable section

namespace Idealize.ShloMosaic.MinFold

open Idealize.ShloMosaic

variable {φ : FTy}

/-- A float `vector.multi_reduction <minimumf>` over one axis, read at the exact instance: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 pattern of `+∞` is `⊤`. -/
theorem ofBits_inf_f32 : Ideal.ofBits .f32 0x7F800000#32 = ⊤ := by simp [Ideal.ofBits, Ideal.ieee]

variable {ι : Type*}

/-- A fold of `min` from `⊤` is a lower bound of exactly what every member is above. -/
theorem le_fold_min_top (s : Finset ι) (g : ι → EReal) (c : EReal) :
    c ≤ s.fold min ⊤ g ↔ ∀ i ∈ s, c ≤ g i := by
  rw [Finset.le_fold_min]; exact ⟨fun h => h.2, fun h => ⟨le_top, h⟩⟩

/-- A value that is below exactly the lower bounds of the whole family is the fold of `min` over it. -/
theorem eq_fold_min_top_of_le_iff [Fintype ι] (g : ι → EReal) (x : EReal) (h : ∀ c, c ≤ x ↔ ∀ i, c ≤ g i) :
    x = (Finset.univ : Finset ι).fold min ⊤ g := by
  apply le_antisymm
  · rw [le_fold_min_top]; intro i _; exact (h x).mp le_rfl i
  · rw [h]; intro i; exact (le_fold_min_top _ _ _).mp le_rfl i (Finset.mem_univ i)

/-- The exact square root is monotone on the extended reals. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe q =>
      have hrq : r ≤ q := EReal.coe_le_coe_iff.mp hxy
      simp only [Ideal.sqrt_coe]
      by_cases hr : r < 0
      · rw [if_pos hr]; exact bot_le
      · rw [if_neg hr, if_neg (by linarith : ¬ q < 0)]
        exact EReal.coe_le_coe_iff.mpr (Real.sqrt_le_sqrt hrq)

/-- Clamping below at zero and then taking the square root is monotone. -/
theorem sqrtClamp_mono : Monotone (fun x : EReal => Ideal.sqrt (max x 0)) :=
  fun _ _ h => sqrt_mono (max_le_max h le_rfl)

instance : Std.Commutative (min : EReal → EReal → EReal) := ⟨min_comm⟩
instance : Std.Associative (min : EReal → EReal → EReal) := ⟨min_assoc⟩

/-- The square root of the clamped minimum is the minimum of the clamped square roots. -/
theorem sqrtClamp_fold_min (s : Finset ι) (g : ι → EReal) :
    Ideal.sqrt (max (s.fold min ⊤ g) 0) = s.fold min ⊤ (fun i => Ideal.sqrt (max (g i) 0)) := by
  have h := Finset.fold_hom (op := (min : EReal → EReal → EReal)) (op' := (min : EReal → EReal → EReal))
    (m := fun x : EReal => Ideal.sqrt (max x 0)) (b := (⊤ : EReal)) (f := g) (s := s)
    (fun x y => sqrtClamp_mono.map_min)
  have htop : Ideal.sqrt (max (⊤ : EReal) 0) = ⊤ := by rw [max_eq_left le_top]; rfl
  simp only [htop] at h
  exact h.symm

end Idealize.ShloMosaic.MinFold

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.KI.Payload.lean ====
/-
  The kernel body's arithmetic, read entry by entry over the extended reals.

  A grid point's two input blocks are `x` (1024 augmented sample points `[x, y, z, 1]`) and `yT` (the batch's 2048
  augmented surface points as columns `[-2y₀, -2y₁, -2y₂, |y|²]ᵀ`). Changing the float format is the identity here,
  and a matrix product into a zero accumulator is the plain sum over the contracted index, so the body computes, at
  row `r` and column `j`,

      tileD2 x yT r j = (Σ_{d<3} x[r,d]·x[r,d]) + Σ_{k<4} x[r,k]·yT[k,j],

  stores per row the minimum over `j` and per column the minimum over `r` (each a fold of `min` from `+∞`), and at a
  later tile stores per column the minimum of what the block held and the tile's column minimum.
-/
import proofs.«166338_j70480413328153_2_alg».proof.Proof.Gen.KernelIdeal.Skeleton
import proofs.«166338_j70480413328153_2_alg».proof.Proof.LibMinFold
import proofs.«166338_j70480413328153_2_alg».proof.Proof.LibKeepdims
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Pay

open Cert.KernelIdeal Cert.KernelIdeal.Gen Idealize.ShloMosaic Idealize.ShloMosaic.ValueIdx
open Idealize.ShloMosaic.MinFold Cert.LibKeepdims

/-- The squared distance the body forms at row `r`, column `j` of a tile. -/
def tileD2 (x : Vec Ideal S1x1024x4 .f32) (yT : Vec Ideal S1x4x2048 .f32) (r : Fin 1024) (j : Fin 2048) : EReal :=
  (∑ d : Fin 3, x (ix3 0 r d.castSucc) * x (ix3 0 r d.castSucc)) + ∑ k : Fin 4, x (ix3 0 r k) * yT (ix3 0 k j)

/-- Dropping the leading unit axis of the sample block keeps entry `(r, k)`. -/
theorem squeeze_x (x : Vec Ideal S1x1024x4 .f32) (r : Fin 1024) (k : Fin 4) :
    shapeCast S1024x4 x shapeCasts_S1x1024x4_S1024x4 (ix2 r k) = x (ix3 0 r k) :=
  shapeCast_apply x _ _ _ (by
    rw [Shape.rowMajor_val_three, Shape.rowMajor_val_two]
    show ((0 : Fin 1).val * 1024 + r.val) * 4 + k.val = r.val * 4 + k.val
    simp)

/-- Dropping the leading unit axis of the surface block keeps entry `(k, j)`. -/
theorem squeeze_y (yT : Vec Ideal S1x4x2048 .f32) (k : Fin 4) (j : Fin 2048) :
    shapeCast S4x2048 yT shapeCasts_S1x4x2048_S4x2048 (ix2 k j) = yT (ix3 0 k j) :=
  shapeCast_apply yT _ _ _ (by
    rw [Shape.rowMajor_val_three, Shape.rowMajor_val_two]
    show ((0 : Fin 1).val * 4 + k.val) * 2048 + j.val = k.val * 2048 + j.val
    simp)

/-- The first three columns of a four-column array. -/
theorem xyz_apply (v : FVec Ideal S1024x4 .f32) (r : Fin 1024) (d : Fin 3) :
    extractStridedSlice S1024x3 ![0, 0] v slices_S1024x4_o0_0_S1024x3 (ix2 r d) = v (ix2 r d.castSucc) :=
  extractStridedSlice_apply _ v _ _ _ (fun a => by
    match a with
    | ⟨0, _⟩ => show r.val = 0 + r.val; omega
    | ⟨1, _⟩ => show (d.castSucc).val = 0 + d.val; simp)

/-- The squared norm of a sample point's `xyz`, spread along its row. -/
theorem sqnorm_apply (v : FVec Ideal S1024x4 .f32) (r : Fin 1024) (j : Fin 2048) :
    broadcastTo S1024x2048
        (shapeCast S1024x1
          (multiReduction .add [1] S1024
            (mulf (extractStridedSlice S1024x3 ![0, 0] v slices_S1024x4_o0_0_S1024x3)
              (extractStridedSlice S1024x3 ![0, 0] v slices_S1024x4_o0_0_S1024x3))
            0x00000000#32 reduces_S1024x3_S1024 (.inl rfl) rfl)
          shapeCasts_S1024_S1024x1)
        broadcasts_S1024x1_S1024x2048 (ix2 r j)
      = ∑ d : Fin 3, v (ix2 r d.castSucc) * v (ix2 r d.castSucc) := by
  refine (broadcastTo_a1_ab_apply _ _ r j).trans ?_
  refine (shapeCast_a_a1_apply _ _ r 0).trans ?_
  refine (multiReduction_add_rows_apply _ _ _ _ r).trans ?_
  refine Finset.sum_congr rfl fun d _ => ?_
  show extractStridedSlice S1024x3 ![0, 0] v slices_S1024x4_o0_0_S1024x3 (ix2 r d)
      * extractStridedSlice S1024x3 ![0, 0] v slices_S1024x4_o0_0_S1024x3 (ix2 r d) = _
  rw [xyz_apply]

theorem lhs0 (i : S1024x2048.Idx) (q : dot_S1024x4_S4x2048_S1024x2048_1_0_0_1_n_n.contr.Idx) : (dot_S1024x4_S4x2048_S1024x2048_1_0_0_1_n_n.lhsIdx i q 0).val = (i 0).val := by
  unfold DotDims.lhsIdx
  rw [dif_neg (show ¬(0 : Fin S1024x4.rank) ∈ dot_S1024x4_S4x2048_S1024x2048_1_0_0_1_n_n.lhsBatch by decide),
    dif_pos (show (0 : Fin S1024x4.rank) ∈ dot_S1024x4_S4x2048_S1024x2048_1_0_0_1_n_n.lhsNonContracting by decide)]
  rfl
theorem lhs1 (i : S1024x2048.Idx) (q : dot_S1024x4_S4x2048_S1024x2048_1_0_0_1_n_n.contr.Idx) : (dot_S1024x4_S4x2048_S1024x2048_1_0_0_1_n_n.lhsIdx i q 1).val = (q ⟨0, by decide⟩).val :=
  dot_S1024x4_S4x2048_S1024x2048_1_0_0_1_n_n.lhsIdx_val_of_single rfl i q
theorem rhs0 (i : S1024x2048.Idx) (q : dot_S1024x4_S4x2048_S1024x2048_1_0_0_1_n_n.contr.Idx) : (dot_S1024x4_S4x2048_S1024x2048_1_0_0_1_n_n.rhsIdx i q 0).val = (q ⟨0, by decide⟩).val :=
  dot_S1024x4_S4x2048_S1024x2048_1_0_0_1_n_n.rhsIdx_val_of_single rfl i q
theorem rhs1 (i : S1024x2048.Idx) (q : dot_S1024x4_S4x2048_S1024x2048_1_0_0_1_n_n.contr.Idx) : (dot_S1024x4_S4x2048_S1024x2048_1_0_0_1_n_n.rhsIdx i q 1).val = (i 1).val := by
  unfold DotDims.rhsIdx
  rw [dif_neg (show ¬(1 : Fin S4x2048.rank) ∈ dot_S1024x4_S4x2048_S1024x2048_1_0_0_1_n_n.rhsBatch by decide),
    dif_pos (show (1 : Fin S4x2048.rank) ∈ dot_S1024x4_S4x2048_S1024x2048_1_0_0_1_n_n.rhsNonContracting by decide)]
  rfl

/-- The matrix product of the two blocks into a zero accumulator, the formats changed on the way in: the sum over the
    four augmented coordinates. -/
theorem product_apply (v : FVec Ideal S1024x4 .f32) (w : FVec Ideal S4x2048 .f32) (r : Fin 1024) (j : Fin 2048) :
    matmul dot_S1024x4_S4x2048_S1024x2048_1_0_0_1_n_n none (truncf .bf16 v bitsLt_bf16_f32) (truncf .bf16 w bitsLt_bf16_f32)
        (constant S1024x2048 .f32 0x00000000#32) (ix2 r j)
      = ∑ k : Fin 4, v (ix2 r k) * w (ix2 k j) := by
  refine (Ideal.matmul_constant_zero_apply dot_S1024x4_S4x2048_S1024x2048_1_0_0_1_n_n none _ _ (ix2 r j)).trans ?_
  rw [← Equiv.sum_comp (ValueIdx.contrEquiv1 dot_S1024x4_S4x2048_S1024x2048_1_0_0_1_n_n 4 rfl rfl).symm]
  refine Finset.sum_congr rfl fun k _ => ?_
  have hk := ValueIdx.contrEquiv1_symm_val dot_S1024x4_S4x2048_S1024x2048_1_0_0_1_n_n 4 rfl rfl k
  have el : dot_S1024x4_S4x2048_S1024x2048_1_0_0_1_n_n.lhsIdx (ix2 r j) ((ValueIdx.contrEquiv1 dot_S1024x4_S4x2048_S1024x2048_1_0_0_1_n_n 4 rfl rfl).symm k) = ix2 r k := funext fun a => Fin.ext (by
    match a with
    | ⟨0, _⟩ => exact lhs0 _ _
    | ⟨1, _⟩ => exact (lhs1 _ _).trans hk)
  have er : dot_S1024x4_S4x2048_S1024x2048_1_0_0_1_n_n.rhsIdx (ix2 r j) ((ValueIdx.contrEquiv1 dot_S1024x4_S4x2048_S1024x2048_1_0_0_1_n_n 4 rfl rfl).symm k) = ix2 k j := funext fun a => Fin.ext (by
    match a with
    | ⟨0, _⟩ => exact (rhs0 _ _).trans hk
    | ⟨1, _⟩ => exact rhs1 _ _)
  show v (dot_S1024x4_S4x2048_S1024x2048_1_0_0_1_n_n.lhsIdx (ix2 r j) _) * w (dot_S1024x4_S4x2048_S1024x2048_1_0_0_1_n_n.rhsIdx (ix2 r j) _) = _
  rw [el, er]

/-- The body's squared distances, entry by entry. -/
theorem pay1_apply (x : Vec Ideal S1x1024x4 .f32) (yT : Vec Ideal S1x4x2048 .f32) (r : Fin 1024) (j : Fin 2048) :
    k0_pay1 (F := Ideal) x yT (ix2 r j) = tileD2 x yT r j := by
  unfold k0_pay1 tileD2
  refine congrArg₂ (· + ·) ?_ ?_
  · refine (sqnorm_apply (shapeCast S1024x4 x shapeCasts_S1x1024x4_S1024x4) r j).trans ?_
    refine Finset.sum_congr rfl fun d _ => ?_
    rw [squeeze_x]
  · refine (product_apply (shapeCast S1024x4 x shapeCasts_S1x1024x4_S1024x4) (shapeCast S4x2048 yT shapeCasts_S1x4x2048_S4x2048) r j).trans ?_
    refine Finset.sum_congr rfl fun k _ => ?_
    rw [squeeze_x, squeeze_y]

/-! ## The minima -/

/-- The row-minimum payload at row `r`: the minimum over the surface points of the tile's squared distances. -/
theorem pay2_apply (x : Vec Ideal S1x1024x4 .f32) (yT : Vec Ideal S1x4x2048 .f32) (r : Fin 1024) :
    k0_pay2 (F := Ideal) x yT (ix3 0 r 0) = (Finset.univ : Finset (Fin 2048)).fold min ⊤ (fun j => tileD2 x yT r j) := by
  unfold k0_pay2
  refine (shapeCast_apply _ _ _ (ix1 r) (by
    rw [Shape.rowMajor_val_one, Shape.rowMajor_val_three]
    show r.val = ((0 : Fin 1).val * 1024 + r.val) * 1 + (0 : Fin 1).val
    simp)).trans ?_
  refine (multiReduction_minimumf_single _ _ reduces_S1024x2048_S1024 _ _ (ix1 r)).trans ?_
  rw [show FloatOps.ofBits (F := Ideal) .f32 0x7F800000#32 = ⊤ from ofBits_inf_f32]
  refine Finset.fold_congr (fun j _ => ?_)
  show k0_pay1 x yT (reduces_S1024x2048_S1024.lift (ix1 r) j) = _
  rw [show reduces_S1024x2048_S1024.lift (ix1 r) j = ix2 r j from funext fun a => Fin.ext (by
    match a with
    | ⟨0, _⟩ => rfl
    | ⟨1, _⟩ => rfl)]
  exact pay1_apply x yT r j

/-- The tile's column minimum at surface point `j`: the minimum over the tile's sample points. -/
theorem pay3_apply (x : Vec Ideal S1x1024x4 .f32) (yT : Vec Ideal S1x4x2048 .f32) (j : Fin 2048) :
    k0_pay3 (F := Ideal) x yT (ix1 j) = (Finset.univ : Finset (Fin 1024)).fold min ⊤ (fun r => tileD2 x yT r j) := by
  unfold k0_pay3
  refine (multiReduction_minimumf_single _ _ reduces_S1024x2048_S2048 _ _ (ix1 j)).trans ?_
  rw [show FloatOps.ofBits (F := Ideal) .f32 0x7F800000#32 = ⊤ from ofBits_inf_f32]
  refine Finset.fold_congr (fun r _ => ?_)
  show k0_pay1 x yT (reduces_S1024x2048_S2048.lift (ix1 j) r) = _
  rw [show reduces_S1024x2048_S2048.lift (ix1 j) r = ix2 r j from funext fun a => Fin.ext (by
    match a with
    | ⟨0, _⟩ => rfl
    | ⟨1, _⟩ => rfl)]
  exact pay1_apply x yT r j

/-- A `[2048]` vector viewed as a `[1, 2048, 1]` block keeps entry `j`. -/
theorem unsqueeze_col (v : FVec Ideal S2048 .f32) (j : Fin 2048) :
    shapeCast S1x2048x1 v shapeCasts_S2048_S1x2048x1 (ix3 0 j 0) = v (ix1 j) :=
  shapeCast_apply _ _ _ (ix1 j) (by
    rw [Shape.rowMajor_val_one, Shape.rowMajor_val_three]
    show j.val = ((0 : Fin 1).val * 2048 + j.val) * 1 + (0 : Fin 1).val
    simp)

/-- And back. -/
theorem squeeze_col (v : Vec Ideal S1x2048x1 .f32) (j : Fin 2048) :
    shapeCast S2048 v shapeCasts_S1x2048x1_S2048 (ix1 j) = v (ix3 0 j 0) :=
  shapeCast_apply _ _ _ (ix3 0 j 0) (by
    rw [Shape.rowMajor_val_one, Shape.rowMajor_val_three]
    show ((0 : Fin 1).val * 2048 + j.val) * 1 + (0 : Fin 1).val = j.val
    simp)

/-- What the resetting branch stores at surface point `j`. -/
theorem pay4_apply (x : Vec Ideal S1x1024x4 .f32) (yT : Vec Ideal S1x4x2048 .f32) (j : Fin 2048) :
    k0_pay4 (F := Ideal) x yT (ix3 0 j 0) = (Finset.univ : Finset (Fin 1024)).fold min ⊤ (fun r => tileD2 x yT r j) := by
  unfold k0_pay4
  exact (unsqueeze_col _ j).trans (pay3_apply x yT j)

/-- What the minimising branch stores at surface point `j`, the block having held `acc`. -/
theorem pay5_apply (x : Vec Ideal S1x1024x4 .f32) (yT : Vec Ideal S1x4x2048 .f32) (acc : Vec Ideal S1x2048x1 .f32) (j : Fin 2048) :
    k0_pay5 (F := Ideal) x yT acc (ix3 0 j 0)
      = min (acc (ix3 0 j 0)) ((Finset.univ : Finset (Fin 1024)).fold min ⊤ (fun r => tileD2 x yT r j)) := by
  unfold k0_pay5
  refine (unsqueeze_col _ j).trans ?_
  show min (shapeCast S2048 acc shapeCasts_S1x2048x1_S2048 (ix1 j)) (k0_pay3 x yT (ix1 j)) = _
  rw [squeeze_col, pay3_apply]

end Cert.KernelIdeal.Pay

end
-- ==== Proof.KI.Value.lean ====
/-
  The two arrays the kernel's region writes, as functions of the two arrays it reads.

  Write `X` for the augmented sample points `[4, 16384, 4]` and `Y` for the augmented surface points `[4, 4, 2048]` as
  the region finds them, and

      d2 X Y b n j = (Σ_{d<3} X[b,n,d]·X[b,n,d]) + Σ_{k<4} X[b,n,k]·Y[b,k,j].

  Grid point `t` is batch `t / 16`, tile `t % 16`; its sample block is rows `1024·(t % 16) …` of batch `t / 16` and its
  surface block is all of that batch, so the tile's squared distance at `(r, j)` is `d2 X Y (t/16) (1024·(t%16) + r) j`.

  * The row-minimum array ends, at `(b, n)`, at the minimum over `j` of `d2 X Y b n j`: point `t` writes block `t` back,
    the blocks tile the array.
  * The column-minimum array ends, at `(b, j)`, at the minimum over ALL `n` of `d2 X Y b n j`. The block of batch `b` is
    written back once, after tile 15; what it holds after tile `k` is, by induction on `k`, the greatest lower bound of
    `d2 X Y b n j` over the rows `n < 1024·(k + 1)` — the first tile's column minima, then at each later tile the minimum
    with that tile's column minima — and after tile 15 those are all 16384 rows.
-/
import proofs.«166338_j70480413328153_2_alg».proof.Proof.KI.Pieces
import proofs.«166338_j70480413328153_2_alg».proof.Proof.KI.Frame
import proofs.«166338_j70480413328153_2_alg».proof.Proof.KI.Payload

set_option maxRecDepth 16384

noncomputable section

open scoped BigOperators

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Body Cert.KernelIdeal.Pay Idealize.ShloMosaic.ValueIdx Idealize.ShloMosaic.MinFold

variable (m : (ℓ : Loc nD τ sig) → Buf (Elt Ideal) ℓ) (ρ : Dev nD → PrngReg)

/-- The squared distance of sample point `n` to surface point `j` of batch `b`, from the augmented arrays. -/
def d2 (X : S4x16384x4.Idx → EReal) (Y : S4x4x2048.Idx → EReal) (b : Fin 4) (n : Fin 16384) (j : Fin 2048) : EReal :=
  (∑ d : Fin 3, X (ix3 b n d.castSucc) * X (ix3 b n d.castSucc)) + ∑ k : Fin 4, X (ix3 b n k) * Y (ix3 b k j)

/-- Per sample point, the minimum over the surface points. -/
def RowArr (X : S4x16384x4.Idx → EReal) (Y : S4x4x2048.Idx → EReal) : S4x16384x1.Idx → EReal :=
  fun i => (Finset.univ : Finset (Fin 2048)).fold min ⊤ (fun j => d2 X Y (i 0) (i 1) j)

/-- Per surface point, the minimum over the sample points. -/
def ColArr (X : S4x16384x4.Idx → EReal) (Y : S4x4x2048.Idx → EReal) : S4x2048x1.Idx → EReal :=
  fun i => (Finset.univ : Finset (Fin 16384)).fold min ⊤ (fun n => d2 X Y (i 0) n (i 1))

/-! ## The index maps, decided over the grid -/

theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

theorem t_lt (t : Fin cfg0.N) : t.val < 64 := lt_of_lt_of_eq t.isLt (show cfg0.N = 64 from N_0)

/-- The batch of point `t`, and the array row of row `r` of its sample tile. -/
def bOf (t : Fin cfg0.N) : Fin 4 := ⟨t.val / 16, by have := t_lt t; omega⟩
def nOf (t : Fin cfg0.N) (r : Fin 1024) : Fin 16384 := ⟨1024 * (t.val % 16) + r.val, by have := r.isLt; have := t_lt t; omega⟩

theorem emb0 (t : Fin cfg0.N) (r : Fin 1024) (k : Fin 4) :
    ((cfg0.win 0).blk t).view.emb (ix3 (0 : Fin 1) r k : S1x1024x4.Idx) = (ix3 (bOf t) (nOf t r) k : S4x16384x4.Idx) := by
  obtain ⟨e0, e1, e2, -⟩ := idx_facts t
  funext a; apply Fin.ext
  match a with
  | ⟨0, _⟩ => show win0_0.index t (0 : Fin 3) * 1 + 1 * (0 : Fin 1).val = t.val / 16; rw [e0]; simp
  | ⟨1, _⟩ => show win0_0.index t (1 : Fin 3) * 1024 + 1 * r.val = 1024 * (t.val % 16) + r.val; rw [e1]; omega
  | ⟨2, _⟩ => show win0_0.index t (2 : Fin 3) * 4 + 1 * k.val = k.val; rw [e2]; omega

theorem emb1 (t : Fin cfg0.N) (k : Fin 4) (j : Fin 2048) :
    ((cfg0.win 1).blk t).view.emb (ix3 (0 : Fin 1) k j : S1x4x2048.Idx) = (ix3 (bOf t) k j : S4x4x2048.Idx) := by
  obtain ⟨-, -, -, e0, e1, e2, -⟩ := idx_facts t
  funext a; apply Fin.ext
  match a with
  | ⟨0, _⟩ => show win0_1.index t (0 : Fin 3) * 1 + 1 * (0 : Fin 1).val = t.val / 16; rw [e0]; simp
  | ⟨1, _⟩ => show win0_1.index t (1 : Fin 3) * 4 + 1 * k.val = k.val; rw [e1]; omega
  | ⟨2, _⟩ => show win0_1.index t (2 : Fin 3) * 2048 + 1 * j.val = j.val; rw [e2]; omega

theorem emb2 (t : Fin cfg0.N) (r : Fin 1024) :
    ((cfg0.win 2).blk t).view.emb (ix3 (0 : Fin 1) r (0 : Fin 1) : S1x1024x1.Idx) = (ix3 (bOf t) (nOf t r) (0 : Fin 1) : S4x16384x1.Idx) := by
  obtain ⟨-, -, -, -, -, -, e0, e1, e2, -⟩ := idx_facts t
  funext a; apply Fin.ext
  match a with
  | ⟨0, _⟩ => show win0_2.index t (0 : Fin 3) * 1 + 1 * (0 : Fin 1).val = t.val / 16; rw [e0]; simp
  | ⟨1, _⟩ => show win0_2.index t (1 : Fin 3) * 1024 + 1 * r.val = 1024 * (t.val % 16) + r.val; rw [e1]; omega
  | ⟨2, _⟩ => show win0_2.index t (2 : Fin 3) * 1 + 1 * (0 : Fin 1).val = (0 : Fin 1).val; rw [e2]; simp

theorem emb3 (t : Fin cfg0.N) (j : Fin 2048) :
    ((cfg0.win 3).blk t).view.emb (ix3 (0 : Fin 1) j (0 : Fin 1) : S1x2048x1.Idx) = (ix3 (bOf t) j (0 : Fin 1) : S4x2048x1.Idx) := by
  obtain ⟨-, -, -, -, -, -, -, -, -, e0, e1, e2⟩ := idx_facts t
  funext a; apply Fin.ext
  match a with
  | ⟨0, _⟩ => show win0_3.index t (0 : Fin 3) * 1 + 1 * (0 : Fin 1).val = t.val / 16; rw [e0]; simp
  | ⟨1, _⟩ => show win0_3.index t (1 : Fin 3) * 2048 + 1 * j.val = j.val; rw [e1]; omega
  | ⟨2, _⟩ => show win0_3.index t (2 : Fin 3) * 1 + 1 * (0 : Fin 1).val = (0 : Fin 1).val; rw [e2]; simp

/-! ## The input blocks and the tile's squared distances -/

theorem iblk0_apply (c : Dev nD) (t : Fin cfg0.N) (r : Fin 1024) (k : Fin 4) :
    iblk m c 0 t (ix3 (0 : Fin 1) r k : S1x1024x4.Idx) = V m c main_v2 (ix3 (bOf t) (nOf t r) k) := by
  show V m c main_v2 (((cfg0.win 0).blk t).view.emb (ix3 (0 : Fin 1) r k : S1x1024x4.Idx)) = _
  rw [emb0]

theorem iblk1_apply (c : Dev nD) (t : Fin cfg0.N) (k : Fin 4) (j : Fin 2048) :
    iblk m c 1 t (ix3 (0 : Fin 1) k j : S1x4x2048.Idx) = V m c main_v9 (ix3 (bOf t) k j) := by
  show V m c main_v9 (((cfg0.win 1).blk t).view.emb (ix3 (0 : Fin 1) k j : S1x4x2048.Idx)) = _
  rw [emb1]

theorem tile_eq (c : Dev nD) (t : Fin cfg0.N) (r : Fin 1024) (j : Fin 2048) :
    tileD2 (iblk m c 0 t) (iblk m c 1 t) r j = d2 (V m c main_v2) (V m c main_v9) (bOf t) (nOf t r) j := by
  unfold tileD2 d2
  simp only [iblk0_apply, iblk1_apply]

/-! ## The row-minimum array -/

/-- A block whose entry at each row `r` is an array's entry at `(b, 1024·tile + r)` is that array's block at point `t`. -/
theorem blk2_of_entries (t : Fin cfg0.N) (C : Vec Ideal S1x1024x1 .f32) (G : S4x16384x1.Idx → EReal)
    (hC : ∀ r : Fin 1024, C (ix3 (0 : Fin 1) r (0 : Fin 1)) = G (ix3 (bOf t) (nOf t r) (0 : Fin 1))) :
    (cfg0.win 2).cut (grid0.coords t) C = ((cfg0.win 2).blk t).view.read (Elt Ideal) G := by
  funext y
  obtain ⟨u, r, w, rfl⟩ : ∃ (u : Fin 1) (r : Fin 1024) (w : Fin 1), y = ix3 u r w := ⟨y 0, y 1, y 2, eq_ix3 y⟩
  obtain rfl : u = 0 := Subsingleton.elim _ _
  obtain rfl : w = 0 := Subsingleton.elim _ _
  show C (ix3 (0 : Fin 1) r (0 : Fin 1)) = G (((cfg0.win 2).blk t).view.emb (ix3 (0 : Fin 1) r (0 : Fin 1) : S1x1024x1.Idx))
  rw [emb2]
  exact hC r

theorem flushed2_eq (c : Dev nD) (t : Fin cfg0.N) :
    (dats m 0 c).flushed 2 t = ((cfg0.win 2).blk t).view.read (Elt Ideal) (RowArr (V m c main_v2) (V m c main_v9)) := by
  show (cfg0.win 2).cut (grid0.coords t) ((dats m 0 c).after 2 t) = _
  rw [after_2, rowAt_eq]
  refine blk2_of_entries t _ _ fun r => ?_
  rw [pay2_apply]
  unfold RowArr
  refine Finset.fold_congr fun j _ => ?_
  exact tile_eq m c t r j

theorem mem_blk2 (t : Fin cfg0.N) (i : S4x16384x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v10_0).slice (win0_2.rect t)).set ↔ _
  rw [View.set_slice_whole, Rect.mem_set_unit]
  exact Iff.rfl

theorem cover2 (i : S4x16384x1.Idx) : ∃ t : Fin cfg0.N, (cfg0.win 2).flush t = true ∧ i ∈ ((cfg0.win 2).blk t).view.set := by
  have h0 : (i 0).val < 4 := (i 0).isLt
  have h1 : (i 1).val < 16384 := (i 1).isLt
  have h2 : (i 2).val < 1 := (i 2).isLt
  have hN : 16 * (i 0).val + (i 1).val / 1024 < cfg0.N := lt_of_lt_of_eq (by omega : _ < 64) (show (64 : ℕ) = cfg0.N from N_0.symm)
  refine ⟨⟨16 * (i 0).val + (i 1).val / 1024, hN⟩, flush0_2 _, ?_⟩
  rw [mem_blk2]
  obtain ⟨-, -, -, -, -, -, e0, e1, e2, -⟩ := idx_facts ⟨16 * (i 0).val + (i 1).val / 1024, hN⟩
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 1024 ≤ (i 1).val ∧ (i 1).val < win0_2.index _ (1 : Fin 3) * 1024 + 1024
    rw [e1]; dsimp only; omega
  | ⟨2, _⟩ =>
    show win0_2.index _ (2 : Fin 3) * 1 ≤ (i 2).val ∧ (i 2).val < win0_2.index _ (2 : Fin 3) * 1 + 1
    rw [e2]; omega

/-- The row-minimum array after the run. -/
theorem final2 (c : Dev nD) : (dats m 0 c).arrAt 2 cfg0.N = RowArr (V m c main_v2) (V m c main_v9) :=
  (dats m 0 c).arrAt_eq_of_cover 2 (RowArr (V m c main_v2) (V m c main_v9)) (fun t _ => flushed2_eq m c t) cover2

/-! ## The column-minimum array -/

/-- After the body at position `n` (batch `b = n / 16`, tile `n % 16`) the column-minimum block holds, at surface point
    `j`, the greatest lower bound of the squared distances to the batch's sample points seen so far. -/
theorem col_inv (c : Dev nD) : ∀ (n : ℕ) (hn : n < cfg0.N) (b : Fin 4), b.val = n / 16 → ∀ (j : Fin 2048) (a : EReal),
    (a ≤ colAt m c n hn (ix3 (0 : Fin 1) j (0 : Fin 1))
      ↔ ∀ p : Fin 16384, p.val < 1024 * (n % 16 + 1) → a ≤ d2 (V m c main_v2) (V m c main_v9) b p j) := by
  intro n
  induction n with
  | zero =>
    intro hn b hb j a
    have hbt : b = bOf ⟨0, hn⟩ := Fin.ext hb
    rw [colAt_first_eq m c ⟨0, hn⟩ (Nat.zero_mod _), pay4_apply, le_fold_min_top]
    constructor
    · intro h p hp
      have := h ⟨p.val, by omega⟩ (Finset.mem_univ _)
      rw [tile_eq, ← hbt] at this
      convert this using 2
      exact Fin.ext (by show p.val = 1024 * (0 % 16) + p.val; omega)
    · intro h r _
      rw [tile_eq, ← hbt]
      exact h _ (by show 1024 * (0 % 16) + r.val < _; have := r.isLt; omega)
  | succ n ih =>
    intro hn b hb j a
    have hN : n + 1 < 64 := lt_of_lt_of_eq hn (show cfg0.N = 64 from N_0)
    have hbt : b = bOf ⟨n + 1, hn⟩ := Fin.ext hb
    by_cases h0 : (n + 1) % 16 = 0
    · rw [colAt_first_eq m c ⟨n + 1, hn⟩ h0, pay4_apply, le_fold_min_top]
      constructor
      · intro h p hp
        have := h ⟨p.val, by omega⟩ (Finset.mem_univ _)
        rw [tile_eq, ← hbt] at this
        convert this using 2
        exact Fin.ext (by show p.val = 1024 * ((n + 1) % 16) + p.val; omega)
      · intro h r _
        rw [tile_eq, ← hbt]
        exact h _ (by show 1024 * ((n + 1) % 16) + r.val < _; have := r.isLt; omega)
    · rw [colAt_later_eq m c ⟨n + 1, hn⟩ h0, pay5_apply, le_min_iff, le_fold_min_top]
      have ihn := ih (Nat.lt_of_succ_lt hn) b (by omega) j a
      have hpred : (⟨n + 1, hn⟩ : Fin cfg0.N).val - 1 = n := rfl
      simp only [hpred]
      rw [ihn]
      constructor
      · rintro ⟨hA, hB⟩ p hp
        by_cases hlt : p.val < 1024 * (n % 16 + 1)
        · exact hA p hlt
        · have := hB ⟨p.val - 1024 * ((n + 1) % 16), by omega⟩ (Finset.mem_univ _)
          rw [tile_eq, ← hbt] at this
          convert this using 2
          exact Fin.ext (by show p.val = 1024 * ((n + 1) % 16) + (p.val - 1024 * ((n + 1) % 16)); omega)
      · intro h
        refine ⟨fun p hp => h p (by omega), fun r _ => ?_⟩
        rw [tile_eq, ← hbt]
        exact h _ (by show 1024 * ((n + 1) % 16) + r.val < _; have := r.isLt; omega)

/-- A block whose entry at each surface point `j` is an array's entry at `(b, j)` is that array's block at a point `t`
    of batch `b`. -/
theorem blk3_of_entries (t : Fin cfg0.N) (C : Vec Ideal S1x2048x1 .f32) (G : S4x2048x1.Idx → EReal)
    (hC : ∀ j : Fin 2048, C (ix3 (0 : Fin 1) j (0 : Fin 1)) = G (ix3 (bOf t) j (0 : Fin 1))) :
    (cfg0.win 3).cut (grid0.coords t) C = ((cfg0.win 3).blk t).view.read (Elt Ideal) G := by
  funext y
  obtain ⟨u, j, w, rfl⟩ : ∃ (u : Fin 1) (j : Fin 2048) (w : Fin 1), y = ix3 u j w := ⟨y 0, y 1, y 2, eq_ix3 y⟩
  obtain rfl : u = 0 := Subsingleton.elim _ _
  obtain rfl : w = 0 := Subsingleton.elim _ _
  show C (ix3 (0 : Fin 1) j (0 : Fin 1)) = G (((cfg0.win 3).blk t).view.emb (ix3 (0 : Fin 1) j (0 : Fin 1) : S1x2048x1.Idx))
  rw [emb3]
  exact hC j

theorem flushed3_eq (c : Dev nD) (t : Fin cfg0.N) (hf : (cfg0.win 3).flush t = true) :
    (dats m 0 c).flushed 3 t = ((cfg0.win 3).blk t).view.read (Elt Ideal) (ColArr (V m c main_v2) (V m c main_v9)) := by
  have h15 : t.val % 16 = 15 := (flush0_3 t).mp hf
  show (cfg0.win 3).cut (grid0.coords t) ((dats m 0 c).after 3 t) = _
  rw [after_3]
  refine blk3_of_entries t _ _ fun j => ?_
  unfold ColArr
  refine eq_fold_min_top_of_le_iff _ _ fun a => ?_
  rw [col_inv m c t.val t.isLt (bOf t) rfl j a]
  constructor
  · intro h p; exact h p (by have := p.isLt; omega)
  · intro h p _; exact h p

theorem mem_blk3 (t : Fin cfg0.N) (i : S4x2048x1.Idx) :
    i ∈ ((cfg0.win 3).blk t).view.set ↔ ∀ a : Fin 3, win0_3.index t a * S1x2048x1.size a ≤ (i a).val ∧ (i a).val < win0_3.index t a * S1x2048x1.size a + S1x2048x1.size a := by
  show i ∈ ((View.whole main_v10_1).slice (win0_3.rect t)).set ↔ _
  rw [View.set_slice_whole, Rect.mem_set_unit]
  exact Iff.rfl

theorem cover3 (i : S4x2048x1.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1 := (i 2).isLt
  have hN : 16 * (i 0).val + 15 < cfg0.N := lt_of_lt_of_eq (by omega : _ < 64) (show (64 : ℕ) = cfg0.N from N_0.symm)
  refine ⟨⟨16 * (i 0).val + 15, hN⟩, (flush0_3 _).mpr (by show (16 * (i 0).val + 15) % 16 = 15; omega), ?_⟩
  rw [mem_blk3]
  obtain ⟨-, -, -, -, -, -, -, -, -, e0, e1, e2⟩ := idx_facts ⟨16 * (i 0).val + 15, hN⟩
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 2048 ≤ (i 1).val ∧ (i 1).val < win0_3.index _ (1 : Fin 3) * 2048 + 2048
    rw [e1]; omega
  | ⟨2, _⟩ =>
    show win0_3.index _ (2 : Fin 3) * 1 ≤ (i 2).val ∧ (i 2).val < win0_3.index _ (2 : Fin 3) * 1 + 1
    rw [e2]; omega

/-- The column-minimum array after the run. -/
theorem final3 (c : Dev nD) : (dats m 0 c).arrAt 3 cfg0.N = ColArr (V m c main_v2) (V m c main_v9) :=
  (dats m 0 c).arrAt_eq_of_cover 3 (ColArr (V m c main_v2) (V m c main_v9)) (fun t hf => flushed3_eq m c t hf) cover3

end Cert.KernelIdeal.Val

end
-- ==== Proof.KI.HostIn.lean ====
/-
  The two arrays the kernel's region reads, entry by entry, from the program's two arguments.

  Before the region the host operations build, from the sample points `A0` `[4, 16384, 4]` and the surface points `A1`
  `[4, 2048, 3]`:
  * the augmented sample points `augX A0` `[4, 16384, 4]`: columns 0–2 are `A0`'s, column 3 is the constant one;
  * the augmented surface points `augY A1` `[4, 4, 2048]`: rows 0–2 are `−2 · A1[b, j, k]`, row 3 is
    `0 + Σ_d A1[b, j, d]·A1[b, j, d]` (a transpose of the concatenation of the two).
-/
import proofs.«166338_j70480413328153_2_alg».proof.Proof.Gen.KernelIdeal.Frame
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.HostIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The sample points with a column of ones appended. -/
def augX (A0 : FVec Ideal S4x16384x4 .f32) : FVec Ideal S4x16384x4 .f32 :=
  concatenate S4x16384x4 2
    [⟨S4x16384x3, extractStridedSlice S4x16384x3 ![0, 0, 0] A0 slices_S4x16384x4_S4x16384x3_0_0_0⟩,
      ⟨S4x16384x1, broadcastInDim S4x16384x1 ![] bcast_S_S4x16384x1 (constant (F := Ideal) S_ .f32 0x3F800000#32)⟩]
    concatenates_S4x16384x3_S4x16384x1_S4x16384x4_d2

/-- `−2` times the surface points with their squared norms appended, before the transpose. -/
def augW (A1 : FVec Ideal S4x2048x3 .f32) : FVec Ideal S4x2048x4 .f32 :=
  concatenate S4x2048x4 2
    [⟨S4x2048x3, mulf (broadcastInDim S4x2048x3 ![] bcast_S_S4x2048x3 (constant (F := Ideal) S_ .f32 0xC0000000#32)) A1⟩,
      ⟨S4x2048x1, broadcastInDim S4x2048x1 ![0, 1] bcast_S4x2048_S4x2048x1_0_1
        (Host.reduceAdd (mulf A1 A1) (constant (F := Ideal) S_ .f32 0x00000000#32) reducesTo_S4x2048x3_S4x2048_d2 h_S_)⟩]
    concatenates_S4x2048x3_S4x2048x1_S4x2048x4_d2

/-- The augmented surface points, one column per surface point. -/
def augY (A1 : FVec Ideal S4x2048x3 .f32) : FVec Ideal S4x4x2048 .f32 :=
  transpose S4x4x2048 [0, 2, 1] (augW A1) transposes_S4x2048x4_S4x4x2048_0_2_1

theorem V_v2 (c : Dev nD) : V m c main_v2 = augX (m ((c : Thread nD τ).loc main_arg0)) := by
  show StableHlo.after hostOps0 (fun b => m (c, b)) (Proc.devRef .tc main_v2) = _
  after_results
  rfl

theorem V_v9 (c : Dev nD) : V m c main_v9 = augY (m ((c : Thread nD τ).loc main_arg1)) := by
  show StableHlo.after hostOps0 (fun b => m (c, b)) (Proc.devRef .tc main_v9) = _
  after_results
  rfl

/-- Columns 0–2 of the augmented sample points are the sample points'. -/
theorem augX_xyz (A0 : FVec Ideal S4x16384x4 .f32) (b : Fin 4) (n : Fin 16384) (k : Fin 4) (hk : k.val < 3) :
    augX A0 (ix3 b n k) = A0 (ix3 b n k) := by
  unfold augX
  refine (concatenate_pair_apply_left (t := S4x16384x4) (s₁ := S4x16384x3) (s₂ := S4x16384x1) (2 : Fin S4x16384x4.rank) _ _ _ (ix3 b n k) rfl (ix3 b n (⟨k.val, hk⟩ : Fin 3) : S4x16384x3.Idx) (fun a => ?_)).trans ?_
  · match a with
    | ⟨0, _⟩ => rfl
    | ⟨1, _⟩ => rfl
    | ⟨2, _⟩ => rfl
  · exact extractStridedSlice_apply _ A0 _ _ _ (fun a => by
      match a with
      | ⟨0, _⟩ => show b.val = 0 + b.val; omega
      | ⟨1, _⟩ => show n.val = 0 + n.val; omega
      | ⟨2, _⟩ => show k.val = 0 + k.val; omega)

/-- Column 3 is the constant one. -/
theorem augX_one (A0 : FVec Ideal S4x16384x4 .f32) (b : Fin 4) (n : Fin 16384) :
    augX A0 (ix3 b n (3 : Fin 4)) = Ideal.ofBits .f32 0x3F800000#32 := by
  unfold augX
  refine (concatenate_pair_apply_right (t := S4x16384x4) (s₁ := S4x16384x3) (s₂ := S4x16384x1) (2 : Fin S4x16384x4.rank) _ _ _ (ix3 b n (3 : Fin 4)) rfl rfl (ix3 b n (0 : Fin 1) : S4x16384x1.Idx) (fun a ha => ?_) ?_).trans ?_
  · match a with
    | ⟨0, _⟩ => rfl
    | ⟨1, _⟩ => rfl
    | ⟨2, _⟩ => exact absurd rfl ha
  · rfl
  · rfl

/-- An entry of the augmented surface points is the entry of the untransposed array with the last two coordinates
    exchanged. -/
theorem augY_apply (A1 : FVec Ideal S4x2048x3 .f32) (b : Fin 4) (k : Fin 4) (j : Fin 2048) :
    augY A1 (ix3 b k j) = augW A1 (ix3 b j k) := by
  unfold augY
  exact transpose_apply _ _ _ (ix3 b k j) (ix3 b j k) (fun a => by
    match a with
    | ⟨0, _⟩ => rfl
    | ⟨1, _⟩ => rfl
    | ⟨2, _⟩ => rfl)

/-- Rows 0–2: `−2` times the surface point's coordinate. -/
theorem augW_xyz (A1 : FVec Ideal S4x2048x3 .f32) (b : Fin 4) (j : Fin 2048) (k : Fin 4) (hk : k.val < 3) :
    augW A1 (ix3 b j k) = Ideal.ofBits .f32 0xC0000000#32 * A1 (ix3 b j (⟨k.val, hk⟩ : Fin 3)) := by
  unfold augW
  refine (concatenate_pair_apply_left (t := S4x2048x4) (s₁ := S4x2048x3) (s₂ := S4x2048x1) (2 : Fin S4x2048x4.rank) _ _ _ (ix3 b j k) rfl (ix3 b j (⟨k.val, hk⟩ : Fin 3) : S4x2048x3.Idx) (fun a => ?_)).trans ?_
  · match a with
    | ⟨0, _⟩ => rfl
    | ⟨1, _⟩ => rfl
    | ⟨2, _⟩ => rfl
  · rfl

/-- Row 3: the surface point's squared norm, summed from zero. -/
theorem augW_sq (A1 : FVec Ideal S4x2048x3 .f32) (b : Fin 4) (j : Fin 2048) :
    augW A1 (ix3 b j (3 : Fin 4))
      = Ideal.ofBits .f32 0x00000000#32 + ∑ d : Fin 3, A1 (ix3 b j d) * A1 (ix3 b j d) := by
  unfold augW
  refine (concatenate_pair_apply_right (t := S4x2048x4) (s₁ := S4x2048x3) (s₂ := S4x2048x1) (2 : Fin S4x2048x4.rank) _ _ _ (ix3 b j (3 : Fin 4)) rfl rfl (ix3 b j (0 : Fin 1) : S4x2048x1.Idx) (fun a ha => ?_) ?_).trans ?_
  · match a with
    | ⟨0, _⟩ => rfl
    | ⟨1, _⟩ => rfl
    | ⟨2, _⟩ => exact absurd rfl ha
  · rfl
  · refine (broadcastInDim_apply _ _ _ (ix3 b j (0 : Fin 1)) (ix2 b j) (fun a => ?_)).trans ?_
    · match a with
      | ⟨0, _⟩ => show b.val = if (4 : ℕ) = 1 then 0 else b.val; simp
      | ⟨1, _⟩ => show j.val = if (2048 : ℕ) = 1 then 0 else j.val; simp
    · simp only [Host.reduceAdd, Ideal.hostReduceAdd_def]
      rw [Ideal.hostReduceAdd_single reducesTo_S4x2048x3_S4x2048_d2 (by decide)]
      refine congrArg (_ + ·) (Finset.sum_congr rfl fun d _ => ?_)
      show A1 _ * A1 _ = _
      rw [show (by decide : S4x2048x3.Reduces [2] S4x2048).lift (ix2 b j) d = ix3 b j d from funext fun a => Fin.ext (by
        match a with
        | ⟨0, _⟩ => rfl
        | ⟨1, _⟩ => rfl
        | ⟨2, _⟩ => rfl)]
      rfl

end Cert.KernelIdeal.HostIn

end
-- ==== Proof.RefIs.lean ====
/-
  The reference program, read entry by entry over the extended reals.

  With `A0` the sample points `[4, 16384, 4]` (only `xyz` used) and `A1` the surface points `[4, 2048, 3]`, the reference forms

      refD2 A0 A1 b n j = ((0 + Σ_d A0[b,n,d]²) + (0 + Σ_d A1[b,j,d]²)) − 2 · Σ_d A0[b,n,d]·A1[b,j,d],

  the distance `sqrt (max (refD2 …) 0)`, per sample point its minimum over the surface points and per surface point its
  minimum over the sample points (each a fold of `min` from `+∞`), and from those two arrays the result by the
  function `tail`: five times the mean over the surface points, plus the mean over the sample points, plus the maximum
  over the sample points, per batch, then the mean over the four batches.
-/
import proofs.«166338_j70480413328153_2_alg».proof.Proof.Gen.ReferenceIdeal.Read
import proofs.«166338_j70480413328153_2_alg».proof.Proof.LibMinFold
import Idealize.ShloMosaic.Lib.ValueIdx
import Idealize.ShloMosaic.PureOps.Reduce

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.MinFold

/-- The reference's squared distance of sample point `n` to surface point `j` of batch `b`. -/
def refD2 (A0 : S4x16384x4.Idx → EReal) (A1 : S4x2048x3.Idx → EReal) (b : Fin 4) (n : Fin 16384) (j : Fin 2048) : EReal :=
  (((Ideal.ofBits .f32 0x00000000#32) + ∑ k : Fin 3, A0 (ix3 b n k.castSucc) * A0 (ix3 b n k.castSucc))
      + ((Ideal.ofBits .f32 0x00000000#32) + ∑ k : Fin 3, A1 (ix3 b j k) * A1 (ix3 b j k)))
    - (Ideal.ofBits .f32 0x40000000#32) * ∑ k : Fin 3, A0 (ix3 b n k.castSucc) * A1 (ix3 b j k)

/-- The reference's distance array at `(b, n, j)`. -/
theorem dist_apply (A0 : S4x16384x4.Idx → EReal) (A1 : S4x2048x3.Idx → EReal) (b : Fin 4) (n : Fin 16384) (j : Fin 2048) :
    val_main_v16 (F := Ideal) A0 A1 (ix3 b n j) = Ideal.sqrt (max (refD2 A0 A1 b n j) (Ideal.ofBits .f32 0x00000000#32)) := by
  have e1 : ∀ k : Fin 3, idx_main_v0 (idx_main_v2 (idx_main_v6 (idx_main_v8 (ix3 b n j))) k) = ix3 b n k.castSucc :=
    fun k => funext fun a => Fin.ext (by match a with | ⟨0, _⟩ => rfl | ⟨1, _⟩ => rfl | ⟨2, _⟩ => rfl)
  have e2 : ∀ k : Fin 3, idx_main_v4 (idx_main_v7 (idx_main_v9 (ix3 b n j))) k = ix3 b j k :=
    fun k => funext fun a => Fin.ext (by match a with | ⟨0, _⟩ => rfl | ⟨1, _⟩ => rfl | ⟨2, _⟩ => rfl)
  have e3 : ∀ k : Fin 3, idx_main_v0 (lidx_main_v5 (ix3 b n j) k) = ix3 b n k.castSucc :=
    fun k => funext fun a => Fin.ext (by match a with | ⟨0, _⟩ => rfl | ⟨1, _⟩ => rfl | ⟨2, _⟩ => rfl)
  have e4 : ∀ k : Fin 3, ridx_main_v5 (ix3 b n j) k = ix3 b j k :=
    fun k => funext fun a => Fin.ext (by match a with | ⟨0, _⟩ => rfl | ⟨1, _⟩ => rfl | ⟨2, _⟩ => rfl)
  rw [val_main_v16_apply, val_main_v15_apply, val_main_v13_apply, val_main_v14_apply, val_main_cst_2_apply,
    val_main_v10_apply, val_main_v12_apply, val_main_v11_apply, val_main_cst_1_apply, val_main_v5_apply,
    val_main_v8_apply, val_main_v6_apply, val_main_v2_apply, val_main_v9_apply, val_main_v7_apply, val_main_v4_apply,
    val_main_cst_apply, val_main_cst_0_apply]
  simp only [val_main_v1_apply, val_main_v3_apply, val_main_v0_apply, e1, e2, e3, e4]
  rfl

/-- Per sample point, the reference's minimum over the surface points. -/
theorem refRow_apply (A0 : S4x16384x4.Idx → EReal) (A1 : S4x2048x3.Idx → EReal) (b : Fin 4) (n : Fin 16384) :
    val_main_v18 (F := Ideal) A0 A1 (ix2 b n)
      = (Finset.univ : Finset (Fin 2048)).fold min ⊤ (fun j => Ideal.sqrt (max (refD2 A0 A1 b n j) (Ideal.ofBits .f32 0x00000000#32))) := by
  unfold val_main_v18
  have hR : S4x16384x2048.Reduces [2] S4x16384 := by decide
  rw [Host.reduce_eq_fold_single FloatOps.minimumf _ _ reducesTo_S4x16384x2048_S4x16384_d2 hR h_S_ (ix2 b n)]
  show Finset.fold min (Ideal.ofBits .f32 0x7F800000#32) _ _ = _
  rw [ofBits_inf_f32]
  refine Finset.fold_congr fun j _ => ?_
  show val_main_v16 (F := Ideal) A0 A1 (hR.lift (ix2 b n) j) = _
  rw [show hR.lift (ix2 b n) j = ix3 b n j from funext fun a => Fin.ext (by
    match a with
    | ⟨0, _⟩ => rfl
    | ⟨1, _⟩ => rfl
    | ⟨2, _⟩ => rfl)]
  exact dist_apply A0 A1 b n j

/-- Per surface point, the reference's minimum over the sample points. -/
theorem refCol_apply (A0 : S4x16384x4.Idx → EReal) (A1 : S4x2048x3.Idx → EReal) (b : Fin 4) (j : Fin 2048) :
    val_main_v17 (F := Ideal) A0 A1 (ix2 b j)
      = (Finset.univ : Finset (Fin 16384)).fold min ⊤ (fun n => Ideal.sqrt (max (refD2 A0 A1 b n j) (Ideal.ofBits .f32 0x00000000#32))) := by
  unfold val_main_v17
  have hR : S4x16384x2048.Reduces [1] S4x2048 := by decide
  rw [Host.reduce_eq_fold_single FloatOps.minimumf _ _ reducesTo_S4x16384x2048_S4x2048_d1 hR h_S_ (ix2 b j)]
  show Finset.fold min (Ideal.ofBits .f32 0x7F800000#32) _ _ = _
  rw [ofBits_inf_f32]
  refine Finset.fold_congr fun n _ => ?_
  show val_main_v16 (F := Ideal) A0 A1 (hR.lift (ix2 b j) n) = _
  rw [show hR.lift (ix2 b j) n = ix3 b n j from funext fun a => Fin.ext (by
    match a with
    | ⟨0, _⟩ => rfl
    | ⟨1, _⟩ => rfl
    | ⟨2, _⟩ => rfl)]
  exact dist_apply A0 A1 b n j

/-- From the per-sample-point distances `row` and the per-surface-point distances `col` to the result: per batch
    `5 · mean col + 1 · mean row + max row`, then the mean over the batches. -/
def tail (row : (⟨S4x16384, .f32⟩ : BufTy).Contents (Elt Ideal)) (col : (⟨S4x2048, .f32⟩ : BufTy).Contents (Elt Ideal)) :
    (⟨S_, .f32⟩ : BufTy).Contents (Elt Ideal) :=
  Host.divf
    (Host.reduceAdd
      (addf
        (addf
          (mulf (broadcastInDim S4 ![] bcast_S_S4 (constant (F := Ideal) S_ .f32 0x40A00000#32))
            (Host.divf (Host.reduceAdd col (constant (F := Ideal) S_ .f32 0x00000000#32) reducesTo_S4x2048_S4_d1 h_S_)
              (broadcastInDim S4 ![] bcast_S_S4 (constant (F := Ideal) S_ .f32 0x45000000#32))))
          (mulf (broadcastInDim S4 ![] bcast_S_S4 (constant (F := Ideal) S_ .f32 0x3F800000#32))
            (Host.divf (Host.reduceAdd row (constant (F := Ideal) S_ .f32 0x00000000#32) reducesTo_S4x16384_S4_d1 h_S_)
              (broadcastInDim S4 ![] bcast_S_S4 (constant (F := Ideal) S_ .f32 0x46800000#32)))))
        (Host.reduce FloatOps.maximumf row (constant (F := Ideal) S_ .f32 0xFF800000#32) reducesTo_S4x16384_S4_d1 h_S_))
      (constant (F := Ideal) S_ .f32 0x00000000#32) reducesTo_S4_S_d0 h_S_)
    (constant (F := Ideal) S_ .f32 0x40800000#32)

/-- The reference's result is `tail` of its two minimum arrays. -/
theorem result_eq_tail (A0 : (⟨S4x16384x4, .f32⟩ : BufTy).Contents (Elt Ideal)) (A1 : (⟨S4x2048x3, .f32⟩ : BufTy).Contents (Elt Ideal)) :
    val_main_v33 (F := Ideal) A0 A1 = tail (val_main_v18 (F := Ideal) A0 A1) (val_main_v17 (F := Ideal) A0 A1) := rfl

end Cert.ReferenceIdeal.RefValue

end
-- ==== Proof.SqDist.lean ====
/-
  The one algebraic law that joins the two programs.

  For REAL coordinates `a` of a sample point and `b` of a surface point, the kernel's squared distance

      |a|² + ( a₀·(−2·b₀) + a₁·(−2·b₁) + a₂·(−2·b₂) + 1·(0 + |b|²) )

  is the reference's `((0 + |a|²) + (0 + |b|²)) − 2·(a·b)`: both are `|a − b|²`. It is a ring identity, so it is stated of
  real numbers; on the extended reals it fails at infinities (distributing `−2` over a sum, cancelling), which is why the
  claim's precondition that every input is finite is used. The four float literals that occur are the numbers they spell.
-/
import Idealize.ShloMosaic.PureOps.Ideal
import Idealize.ShloMosaic.PureOps.Ideal.Laws
import Mathlib.Data.EReal.Basic
import Mathlib.Tactic.Ring
import Mathlib.Tactic.NormNum

noncomputable section

namespace Cert.SqDist

open Idealize.ShloMosaic

theorem ofBits_zero : Ideal.ofBits .f32 0x00000000#32 = ((0 : ℝ) : EReal) := by
  rw [Ideal.ofBits_zero_f32]; rfl
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num

/-- The kernel's arrangement of the squared distance is the reference's, for real coordinates. -/
theorem sqdist_eq (a0 a1 a2 b0 b1 b2 : ℝ) :
    (((a0 : EReal) * a0 + (a1 : EReal) * a1 + (a2 : EReal) * a2)
        + ((a0 : EReal) * (Ideal.ofBits .f32 0xC0000000#32 * (b0 : EReal))
          + (a1 : EReal) * (Ideal.ofBits .f32 0xC0000000#32 * (b1 : EReal))
          + (a2 : EReal) * (Ideal.ofBits .f32 0xC0000000#32 * (b2 : EReal))
          + Ideal.ofBits .f32 0x3F800000#32
            * (Ideal.ofBits .f32 0x00000000#32 + ((b0 : EReal) * b0 + (b1 : EReal) * b1 + (b2 : EReal) * b2))))
      = ((Ideal.ofBits .f32 0x00000000#32 + ((a0 : EReal) * a0 + (a1 : EReal) * a1 + (a2 : EReal) * a2))
          + (Ideal.ofBits .f32 0x00000000#32 + ((b0 : EReal) * b0 + (b1 : EReal) * b1 + (b2 : EReal) * b2)))
        - Ideal.ofBits .f32 0x40000000#32 * ((a0 : EReal) * b0 + (a1 : EReal) * b1 + (a2 : EReal) * b2) := by
  rw [ofBits_zero, ofBits_one, ofBits_two, ofBits_neg_two]
  simp only [← EReal.coe_mul, ← EReal.coe_add, ← EReal.coe_sub]
  exact congrArg _ (by ring)

end Cert.SqDist

end
-- ==== Proof.KI.Bridge.lean ====
/-
  The kernel's two reduced arrays, clamped at zero and square-rooted, are the reference's two minimum arrays.

  For finite inputs the kernel's squared distance over the augmented arrays is the reference's (the ring identity of
  the squared-distance module, the augmented arrays read entry by entry). The kernel takes the minimum of the squared
  distances first and applies `sqrt (max · 0)` to the minimum; the reference applies it to every squared distance and
  takes the minimum after. The map is monotone and fixes `+∞`, so the two agree.
-/
import proofs.«166338_j70480413328153_2_alg».proof.Proof.KI.Value
import proofs.«166338_j70480413328153_2_alg».proof.Proof.KI.HostIn
import proofs.«166338_j70480413328153_2_alg».proof.Proof.RefIs
import proofs.«166338_j70480413328153_2_alg».proof.Proof.SqDist

set_option maxRecDepth 16384

noncomputable section

open scoped BigOperators

namespace Cert.KernelIdeal.Bridge

open Idealize.ShloMosaic Idealize.ShloMosaic.ValueIdx Idealize.ShloMosaic.MinFold
open Cert.KernelIdeal Cert.KernelIdeal.Val Cert.KernelIdeal.HostIn Cert.SqDist
open Cert.ReferenceIdeal.RefValue

/-- For finite inputs the two programs form the same squared distances. -/
theorem d2_eq_refD2 (A0 : FVec Ideal S4x16384x4 .f32) (A1 : FVec Ideal S4x2048x3 .f32)
    (h0 : ∀ i, ∃ r : ℝ, A0 i = r) (h1 : ∀ i, ∃ r : ℝ, A1 i = r) (b : Fin 4) (n : Fin 16384) (j : Fin 2048) :
    d2 (augX A0) (augY A1) b n j = refD2 A0 A1 b n j := by
  have e0 : Fin.castSucc (0 : Fin 3) = (0 : Fin 4) := rfl
  have e1 : Fin.castSucc (1 : Fin 3) = (1 : Fin 4) := rfl
  have e2 : Fin.castSucc (2 : Fin 3) = (2 : Fin 4) := rfl
  have x0 : augX A0 (ix3 b n (0 : Fin 4)) = A0 (ix3 b n (0 : Fin 4)) := augX_xyz A0 b n 0 (by decide)
  have x1 : augX A0 (ix3 b n (1 : Fin 4)) = A0 (ix3 b n (1 : Fin 4)) := augX_xyz A0 b n 1 (by decide)
  have x2 : augX A0 (ix3 b n (2 : Fin 4)) = A0 (ix3 b n (2 : Fin 4)) := augX_xyz A0 b n 2 (by decide)
  have x3 : augX A0 (ix3 b n (3 : Fin 4)) = Ideal.ofBits .f32 0x3F800000#32 := augX_one A0 b n
  have y0 : augY A1 (ix3 b (0 : Fin 4) j) = Ideal.ofBits .f32 0xC0000000#32 * A1 (ix3 b j (0 : Fin 3)) :=
    (augY_apply A1 b 0 j).trans (augW_xyz A1 b j 0 (by decide))
  have y1 : augY A1 (ix3 b (1 : Fin 4) j) = Ideal.ofBits .f32 0xC0000000#32 * A1 (ix3 b j (1 : Fin 3)) :=
    (augY_apply A1 b 1 j).trans (augW_xyz A1 b j 1 (by decide))
  have y2 : augY A1 (ix3 b (2 : Fin 4) j) = Ideal.ofBits .f32 0xC0000000#32 * A1 (ix3 b j (2 : Fin 3)) :=
    (augY_apply A1 b 2 j).trans (augW_xyz A1 b j 2 (by decide))
  have y3 : augY A1 (ix3 b (3 : Fin 4) j)
      = Ideal.ofBits .f32 0x00000000#32 + ∑ d : Fin 3, A1 (ix3 b j d) * A1 (ix3 b j d) :=
    (augY_apply A1 b 3 j).trans (augW_sq A1 b j)
  obtain ⟨a0, ha0⟩ := h0 (ix3 b n (0 : Fin 4))
  obtain ⟨a1, ha1⟩ := h0 (ix3 b n (1 : Fin 4))
  obtain ⟨a2, ha2⟩ := h0 (ix3 b n (2 : Fin 4))
  obtain ⟨b0, hb0⟩ := h1 (ix3 b j (0 : Fin 3))
  obtain ⟨b1, hb1⟩ := h1 (ix3 b j (1 : Fin 3))
  obtain ⟨b2, hb2⟩ := h1 (ix3 b j (2 : Fin 3))
  unfold d2 refD2
  simp only [Fin.sum_univ_three, Fin.sum_univ_four, e0, e1, e2, x0, x1, x2, x3, y0, y1, y2, y3, ha0, ha1, ha2, hb0, hb1, hb2]
  exact sqdist_eq a0 a1 a2 b0 b1 b2

variable (A0 : FVec Ideal S4x16384x4 .f32) (A1 : FVec Ideal S4x2048x3 .f32)
  (h0 : ∀ i, ∃ r : ℝ, A0 i = r) (h1 : ∀ i, ∃ r : ℝ, A1 i = r)

include h0 h1 in
/-- Per sample point: the clamped square root of the kernel's minimum is the reference's minimum distance. -/
theorem rowDist_eq (b : Fin 4) (n : Fin 16384) :
    Ideal.sqrt (max (RowArr (augX A0) (augY A1) (ix3 b n (0 : Fin 1))) (Ideal.ofBits .f32 0x00000000#32))
      = Cert.ReferenceIdeal.Read.val_main_v18 (F := Ideal) A0 A1 (ix2 b n) := by
  rw [refRow_apply]
  unfold RowArr
  rw [Ideal.ofBits_zero_f32, sqrtClamp_fold_min]
  refine Finset.fold_congr fun j _ => ?_
  show Ideal.sqrt (max (d2 (augX A0) (augY A1) b n j) 0) = _
  rw [d2_eq_refD2 A0 A1 h0 h1]

include h0 h1 in
/-- Per surface point likewise. -/
theorem colDist_eq (b : Fin 4) (j : Fin 2048) :
    Ideal.sqrt (max (ColArr (augX A0) (augY A1) (ix3 b j (0 : Fin 1))) (Ideal.ofBits .f32 0x00000000#32))
      = Cert.ReferenceIdeal.Read.val_main_v17 (F := Ideal) A0 A1 (ix2 b j) := by
  rw [refCol_apply]
  unfold ColArr
  rw [Ideal.ofBits_zero_f32, sqrtClamp_fold_min]
  refine Finset.fold_congr fun n _ => ?_
  show Ideal.sqrt (max (d2 (augX A0) (augY A1) b n j) 0) = _
  rw [d2_eq_refD2 A0 A1 h0 h1]

end Cert.KernelIdeal.Bridge

end
-- ==== Proof.Finite.lean ====
/-
  What the precondition says: every entry of both inputs is a real number.

  The printed predicate is the conjunction of two `all`s, each over the entries `x` of one input of the comparison
  `|x| < +∞`. On the extended reals `|x| = max x (−x)` is below `+∞` exactly when `x` is neither infinity.
-/
import proofs.«166338_j70480413328153_2_alg».proof.Proof.Gen.Pre_finite_inputs
import proofs.«166338_j70480413328153_2_alg».proof.Proof.LibMinFold
import Idealize.ShloMosaic.Lib.ReduceAll
import Idealize.ShloMosaic.Lib.ValueIdx
import Idealize.ShloMosaic.PureOps.Ideal.Laws

set_option maxRecDepth 16384

noncomputable section

namespace Cert.Pre_finite_inputs.Decode

open Cert.Pre_finite_inputs Idealize.ShloMosaic Idealize.ShloMosaic.MinFold

variable [Facts]

instance : Subsingleton S_.Idx := ⟨fun a b => funext fun d => d.elim0⟩

/-- An extended real whose absolute value is below `+∞` is a real number. -/
theorem real_of_abs_lt (x : EReal)
    (h : Ideal.cmp .olt (max x (-x)) (Ideal.ofBits .f32 0x7F800000#32) = 1#1) : ∃ r : ℝ, x = r := by
  rw [ofBits_inf_f32] at h
  induction x using EReal.rec with
  | bot => simp [Ideal.cmp] at h
  | top => simp [Ideal.cmp] at h
  | coe r => exact ⟨r, rfl⟩

/-- Under the precondition both inputs hold real numbers only. -/
theorem finite_of_pre (A0 : FVec Ideal S4x16384x4 .f32) (A1 : FVec Ideal S4x2048x3 .f32)
    (h : fn (F := Ideal) A0 A1 = fun _ => 1#1) :
    (∀ i, ∃ r : ℝ, A0 i = r) ∧ (∀ i, ∃ r : ℝ, A1 i = r) := by
  have h0 := congrFun h ValueIdx.ix0
  dsimp only [fn] at h0
  obtain ⟨hA, hB⟩ := IntOp.andi_eq_one.mp h0
  refine ⟨fun i => real_of_abs_lt _ ?_, fun i => real_of_abs_lt _ ?_⟩
  · exact Host.reduce_andi_all _ _ _ _ _ hA i
  · exact Host.reduce_andi_all _ _ _ _ _ hB i

end Cert.Pre_finite_inputs.Decode

end
-- ==== Proof.KI.HostOut.lean ====
/-
  The kernel program's result, from the two arrays its region wrote.

  After the region the host operations view each array as `[4, 16384]` resp. `[4, 2048]`, clamp it below at zero, take
  the square root, and form the result by the same function `tail` as the reference does from its two minimum arrays.
  With the two arrays identified (the previous modules) and the clamped square roots matched entry by entry with the
  reference's minima, the kernel program ends at the reference's result.
-/
import proofs.«166338_j70480413328153_2_alg».proof.Proof.KI.Bridge
import proofs.«166338_j70480413328153_2_alg».proof.Proof.Finite
import Idealize.ShloMosaic.Lib.StableHlo.Run

set_option maxRecDepth 16384

noncomputable section

open scoped BigOperators

namespace Cert.KernelIdeal.HostOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.KernelIdeal.Body Cert.KernelIdeal.Val Cert.KernelIdeal.HostIn Cert.KernelIdeal.Bridge
open Cert.ReferenceIdeal.RefValue

variable (m : (ℓ : Loc nD τ sig) → Buf (Elt Ideal) ℓ)

/-- Per sample point: the row-minimum array viewed as `[4, 16384]`, clamped at zero, square-rooted. -/
def rowK (ROW : FVec Ideal S4x16384x1 .f32) : FVec Ideal S4x16384 .f32 :=
  Host.sqrt (maximumf (fun i => shapeCast S4x16384 ROW shapeCasts_S4x16384x1_S4x16384 i)
    (broadcastInDim S4x16384 ![] bcast_S_S4x16384 (constant (F := Ideal) S_ .f32 0x00000000#32)))

/-- Per surface point likewise. -/
def colK (COL : FVec Ideal S4x2048x1 .f32) : FVec Ideal S4x2048 .f32 :=
  Host.sqrt (maximumf (fun i => shapeCast S4x2048 COL shapeCasts_S4x2048x1_S4x2048 i)
    (broadcastInDim S4x2048 ![] bcast_S_S4x2048 (constant (F := Ideal) S_ .f32 0x00000000#32)))

set_option maxHeartbeats 1000000 in
/-- The host operations after the region, over any contents `W` of the buffers: the result is `tail` of the two arrays
    the region wrote, each reshaped, clamped and square-rooted. -/
theorem tail_value (W : Valuation τ sig (Elt Ideal)) :
    StableHlo.after (hostOps1 (F := Ideal)) W (Proc.devRef .tc main_v33)
      = tail (rowK (W (Proc.devRef .tc main_v10_0))) (colK (W (Proc.devRef .tc main_v10_1))) := by
  after_results_simp
  rfl

theorem rowK_apply (ROW : FVec Ideal S4x16384x1 .f32) (b : Fin 4) (n : Fin 16384) :
    rowK ROW (ix2 b n) = Ideal.sqrt (max (ROW (ix3 b n (0 : Fin 1))) (Ideal.ofBits .f32 0x00000000#32)) := by
  unfold rowK
  show Ideal.sqrt (max (shapeCast S4x16384 ROW shapeCasts_S4x16384x1_S4x16384 (ix2 b n)) _) = _
  rw [shapeCast_apply ROW _ (ix2 b n) (ix3 b n (0 : Fin 1)) (by
    rw [Shape.rowMajor_val_three, Shape.rowMajor_val_two]
    show (b.val * 16384 + n.val) * 1 + (0 : Fin 1).val = b.val * 16384 + n.val
    simp)]
  rfl

theorem colK_apply (COL : FVec Ideal S4x2048x1 .f32) (b : Fin 4) (j : Fin 2048) :
    colK COL (ix2 b j) = Ideal.sqrt (max (COL (ix3 b j (0 : Fin 1))) (Ideal.ofBits .f32 0x00000000#32)) := by
  unfold colK
  show Ideal.sqrt (max (shapeCast S4x2048 COL shapeCasts_S4x2048x1_S4x2048 (ix2 b j)) _) = _
  rw [shapeCast_apply COL _ (ix2 b j) (ix3 b j (0 : Fin 1)) (by
    rw [Shape.rowMajor_val_three, Shape.rowMajor_val_two]
    show (b.val * 2048 + j.val) * 1 + (0 : Fin 1).val = b.val * 2048 + j.val
    simp)]
  rfl

/-- What the host operations after the region leave in the result buffer, from the proof data's final arrays. -/
theorem result_eq (c : Dev nD) :
    Pipeline.afterTail₀ cfgs (dats m) 0 (V0 m) [hostOps1] c main_v33
      = tail (rowK ((dats m 0 c).arrAt 2 cfg0.N)) (colK ((dats m 0 c).arrAt 3 cfg0.N)) := by
  unfold Pipeline.afterTail₀
  rw [show ([hostOps1] : List (List (HloOp τ sig (Elt Ideal)))).flatten = hostOps1 from by
    simp only [List.flatten_cons, List.flatten_nil, List.append_nil]]
  rw [tail_value]
  have e2 : (Pipeline.withArrays (cfgs 0).spec c (V0 m c) (fun w => (dats m 0 c).arrAt w (cfgs 0).N)
      (Proc.devRef .tc main_v10_0) : FVec Ideal S4x16384x1 .f32) = (dats m 0 c).arrAt 2 cfg0.N :=
    Pipeline.withArrays_arr spec0 launch0.win.arr_inj c _ _ 2
  have e3 : (Pipeline.withArrays (cfgs 0).spec c (V0 m c) (fun w => (dats m 0 c).arrAt w (cfgs 0).N)
      (Proc.devRef .tc main_v10_1) : FVec Ideal S4x2048x1 .f32) = (dats m 0 c).arrAt 3 cfg0.N :=
    Pipeline.withArrays_arr spec0 launch0.win.arr_inj c _ _ 3
  exact congrArg₂ tail (congrArg rowK e2) (congrArg colK e3)

attribute [local irreducible] Cert.KernelIdeal.Val.RowArr Cert.KernelIdeal.Val.ColArr

/-- Under the precondition the kernel program's result is the reference's function of the two arguments. -/
theorem kernel_result (c : Dev nD)
    (h0 : ∀ i, ∃ r : ℝ, (m ((c : Thread nD τ).loc main_arg0) : S4x16384x4.Idx → EReal) i = (r : EReal))
    (h1 : ∀ i, ∃ r : ℝ, (m ((c : Thread nD τ).loc main_arg1) : S4x2048x3.Idx → EReal) i = (r : EReal)) :
    Pipeline.afterTail₀ cfgs (dats m) 0 (V0 m) [hostOps1] c main_v33
      = Cert.ReferenceIdeal.Read.val_main_v33 (F := Ideal) (m ((c : Thread nD τ).loc main_arg0)) (m ((c : Thread nD τ).loc main_arg1)) := by
  have hrow : rowK ((dats m 0 c).arrAt 2 cfg0.N)
      = Cert.ReferenceIdeal.Read.val_main_v18 (F := Ideal) (m ((c : Thread nD τ).loc main_arg0)) (m ((c : Thread nD τ).loc main_arg1)) := by
    refine (congrArg rowK (final2 m c)).trans ?_
    rw [V_v2, V_v9]
    funext i
    obtain ⟨b, n, rfl⟩ : ∃ (b : Fin 4) (n : Fin 16384), i = ix2 b n := ⟨i 0, i 1, eq_ix2 i⟩
    rw [rowK_apply]
    exact rowDist_eq _ _ h0 h1 b n
  have hcol : colK ((dats m 0 c).arrAt 3 cfg0.N)
      = Cert.ReferenceIdeal.Read.val_main_v17 (F := Ideal) (m ((c : Thread nD τ).loc main_arg0)) (m ((c : Thread nD τ).loc main_arg1)) := by
    refine (congrArg colK (final3 m c)).trans ?_
    rw [V_v2, V_v9]
    funext i
    obtain ⟨b, j, rfl⟩ : ∃ (b : Fin 4) (j : Fin 2048), i = ix2 b j := ⟨i 0, i 1, eq_ix2 i⟩
    rw [colK_apply]
    exact colDist_eq _ _ h0 h1 b j
  rw [result_eq, hrow, hcol, result_eq_tail]

end Cert.KernelIdeal.HostOut

end
-- ==== Proof.Claims.lean ====
/-
  The five claims.

  * The three frames. Each kernel program runs to the end without a fault and leaves its arguments unchanged: the run
    of its pipeline over the 64 grid points, read at the two argument arrays (at the word-level values for the printed
    kernel, at the extended reals for its idealization). The reference has no kernel; its frame is its run with the
    result dropped.
  * The idealization rewrote no operation, so there is nothing to preserve.
  * The two idealized programs end with equal results. The kernel program's result is, by the previous modules, the
    reference's function of the two arguments whenever those hold real numbers only, which the precondition says; the
    reference's run ends at that same function of its own arguments, which agree with the kernel's.
-/
import proofs.«166338_j70480413328153_2_alg».proof.Defs
import proofs.«166338_j70480413328153_2_alg».proof.Proof.K.Frame
import proofs.«166338_j70480413328153_2_alg».proof.Proof.KI.Frame
import proofs.«166338_j70480413328153_2_alg».proof.Proof.KI.HostOut
import Idealize.ShloMosaic.Adequacy
import Idealize.ShloMosaic.Init

set_option maxRecDepth 16384

noncomputable section

namespace Cert.Proof.Claims

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.ReferenceIdeal.Read.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Body.run_main (F := Ideal) m ρ)
    obtain ⟨hf0, hf1⟩ := Cert.Pre_finite_inputs.Decode.finite_of_pre _ _ (hpre c)
    refine ⟨?_, ?_, ?_⟩
    · exact ((h c).2 Cert.KernelIdeal.main_v33 (Pipeline.mem_restRefs_of Cert.KernelIdeal.main_v33 (by decide) (by decide))).trans
        (Cert.KernelIdeal.HostOut.kernel_result m c hf0 hf1)
    · exact ((h c).2 Cert.KernelIdeal.main_arg0 (Pipeline.mem_restRefs_of Cert.KernelIdeal.main_arg0 (by decide) (by decide))).trans
        (Cert.KernelIdeal.Gen.W_main_arg0 m _ c)
    · exact ((h c).2 Cert.KernelIdeal.main_arg1 (Pipeline.mem_restRefs_of Cert.KernelIdeal.main_arg1 (by decide) (by decide))).trans
        (Cert.KernelIdeal.Gen.W_main_arg1 m _ c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v33_eq, (hagree c).1, (hagree c).2]

end Cert.Proof.Claims

end
-- ==== Proof.lean ====
/-
  A Pallas kernel that computes, for 4 batches of 16384 sample points and 2048 surface points, the one-sided minimum
  distances of a chamfer loss, against its plain array-program reference.

  The kernel augments the points so that one matrix product gives `−2·x·y + |y|²`, adds `|x|²`, and reduces the squared
  distances BEFORE taking square roots: per sample point the minimum over the surface points, and per surface point a
  running minimum carried across the 16 sample tiles of a batch (reset at a batch's first tile). The reference forms
  `|x|² + |y|² − 2·x·y`, clamps at zero, takes the square root of every entry and reduces afterwards. Over the extended
  reals, for finite inputs, the two squared distances are one real number (a ring identity), and `sqrt (max · 0)` is
  monotone and fixes `+∞`, so it commutes with the minimum; the remaining operations (means, a maximum, a weighted sum)
  are the same function of the two reduced arrays in both programs.

  The modules: the body's two branches run symbolically and the pipeline's run over the grid (`K/`, `KI/` Cases,
  RunFirst, RunLater, Data, Frame); the body's arithmetic entry by entry (KI/Payload, KI/Pieces); the two output arrays
  as functions of the region's inputs (KI/Value); the host operations before and after the region (KI/HostIn,
  KI/HostOut); the reference read entry by entry (RefIs); the algebra (SqDist, LibMinFold), the precondition (Finite),
  the bridge (KI/Bridge) and the five claims (Claims).
-/
import proofs.«166338_j70480413328153_2_alg».proof.Defs
import proofs.«166338_j70480413328153_2_alg».proof.Proof.Gen.Kernel
import proofs.«166338_j70480413328153_2_alg».proof.Proof.Gen.KernelIdeal
import proofs.«166338_j70480413328153_2_alg».proof.Proof.Gen.ReferenceIdeal
import proofs.«166338_j70480413328153_2_alg».proof.Proof.Gen.Pre_finite_inputs
import proofs.«166338_j70480413328153_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
